-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S256x1024 .f32 .bf16
  ∧ IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024x1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x3072 : Shape := ⟨2, ![1024, 3072]⟩
abbrev S1024x2048 : Shape := ⟨2, ![1024, 2048]⟩
abbrev S3072 : Shape := ⟨1, ![3072]⟩
abbrev S1x3072 : Shape := ⟨2, ![1, 3072]⟩
abbrev S2048 : Shape := ⟨1, ![2048]⟩
abbrev S1x2048 : Shape := ⟨2, ![1, 2048]⟩
abbrev S256x1024 : Shape := ⟨2, ![256, 1024]⟩
abbrev S256x3072 : Shape := ⟨2, ![256, 3072]⟩
abbrev S256x2048 : Shape := ⟨2, ![256, 2048]⟩

abbrev nBuf : Space → Nat
  | .hbm => 34
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x3072, .f32⟩
  | .hbm, ⟨18, _⟩ => ⟨S1024x1024, .f32⟩
  | .hbm, ⟨19, _⟩ => ⟨S1024x1024, .f32⟩
  | .hbm, ⟨20, _⟩ => ⟨S1024x2048, .f32⟩
  | .hbm, ⟨21, _⟩ => ⟨S3072, .f32⟩
  | .hbm, ⟨22, _⟩ => ⟨S1x3072, .f32⟩
  | .hbm, ⟨23, _⟩ => ⟨S2048, .f32⟩
  | .hbm, ⟨24, _⟩ => ⟨S1x2048, .f32⟩
  | .hbm, ⟨25, _⟩ => ⟨S1024x3072, .bf16⟩
  | .hbm, ⟨26, _⟩ => ⟨S1024x3072, .f32⟩
  | .hbm, ⟨27, _⟩ => ⟨S1024x3072, .f32⟩
  | .hbm, ⟨28, _⟩ => ⟨S1024x3072, .bf16⟩
  | .hbm, ⟨29, _⟩ => ⟨S1024x2048, .bf16⟩
  | .hbm, ⟨30, _⟩ => ⟨S1024x2048, .f32⟩
  | .hbm, ⟨31, _⟩ => ⟨S1024x2048, .f32⟩
  | .hbm, ⟨32, _⟩ => ⟨S1024x2048, .bf16⟩
  | .hbm, ⟨33, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x3072, .bf16⟩
  | .local _ .vmem, ⟨6, _⟩ => ⟨S1024x2048, .bf16⟩
  | .local _ .vmem, ⟨7, _⟩ => ⟨S1024x2048, .bf16⟩
  | .local _ .vmem, ⟨8, _⟩ => ⟨S1x3072, .f32⟩
  | .local _ .vmem, ⟨9, _⟩ => ⟨S1x2048, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  concatenates_S1024x1024_S1024x1024_S1024x2048_d1 : Shape.Concatenates [S1024x1024, S1024x1024] S1024x2048 1
  concatenates_S1024_S1024_S1024_S3072_d0 : Shape.Concatenates [S1024, S1024, S1024] S3072 0
  shapeCasts_S3072_S1x3072 : S3072.ShapeCasts S1x3072
  concatenates_S1024_S1024_S2048_d0 : Shape.Concatenates [S1024, S1024] S2048 0
  shapeCasts_S2048_S1x2048 : S2048.ShapeCasts S1x2048
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  slices_S256x2048_o0_0_S256x1024 : S256x2048.Slices ![0, 0] S256x1024
  slices_S256x2048_o0_1024_S256x1024 : S256x2048.Slices ![0, 1024] S256x1024
  dot_S256x1024_S1024x3072_S256x3072_1_0_0_1_n_n_wf : DotDims.WF S256x1024 S1024x3072 S256x3072 [1] [0] [0] [1] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where
  halias0_8 : Pipeline.Aliased win0 1 8

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S1024x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S1024x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S1024x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.BitsFrame.lean ====
/-
  The frame of the GRU kernel's program: every weakly fair execution of @main ends, nothing faults, and the
  fourteen argument arrays end as they were launched.

  @main is twenty host operations (the transposed weights laid side by side, the biases laid end to end, each
  weight panel split into its bf16 head and the bf16 remainder of what the head leaves) followed by ONE region over a
  grid of 64 points. At point t the region hands the body block t (256 rows) of the input batch and of the hidden
  batch, the four whole weight panels and the two whole bias rows, and writes back block t of the result. The body
  loads its eight input blocks whole, computes, and stores the result block whole — so what its output buffer holds
  afterwards is ONE piece, the body's arithmetic applied to the blocks it was handed. None of the host operations
  writes an argument array, the region writes only the result's array, and so every argument is found unchanged.
-/
import proofs.«111548_j48266842472681_2_alg».proof.Proof.Gen.Kernel.Launch
import proofs.«111548_j48266842472681_2_alg».proof.Proof.Gen.Kernel.Skeleton
import proofs.«111548_j48266842472681_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` as the region finds them: the launch memory after the twenty host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations and then the region, entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 1: the region finds it as launched. -/
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 2: the region finds it as launched. -/
theorem entry_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 3: the region finds it as launched. -/
theorem entry_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 4: the region finds it as launched. -/
theorem entry_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 5: the region finds it as launched. -/
theorem entry_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 6: the region finds it as launched. -/
theorem entry_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 7: the region finds it as launched. -/
theorem entry_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 8: the region finds it as launched. -/
theorem entry_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 9: the region finds it as launched. -/
theorem entry_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 10: the region finds it as launched. -/
theorem entry_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 11: the region finds it as launched. -/
theorem entry_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 12: the region finds it as launched. -/
theorem entry_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 13: the region finds it as launched. -/
theorem entry_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or
    not: an unfetched point has the block index of the point before, whose block the body left in place. -/
theorem held_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For proof data whose arrays are the region-entry contents, a final state with every staged array at what the
    library computes and every other unscoped buffer as the region found it has the fourteen arguments as launched:
    the two staged ones are inputs, never written back; the twelve others no window stages. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c)⟩

/-- So a run to such states is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m dats hA r h c) h

/-! ## The body's accesses: every load and the one store address a whole buffer -/

abbrev rAct : Rect S256x1024 := Rect.unit (s := S256x1024) ![0, 0] S256x1024.size inb_S256x1024_S256x1024_0_0
abbrev rWi : Rect S1024x3072 := Rect.unit (s := S1024x3072) ![0, 0] S1024x3072.size inb_S1024x3072_S1024x3072_0_0
abbrev rWh : Rect S1024x2048 := Rect.unit (s := S1024x2048) ![0, 0] S1024x2048.size inb_S1024x2048_S1024x2048_0_0
abbrev rBi : Rect S1x3072 := Rect.unit (s := S1x3072) ![0, 0] S1x3072.size inb_S1x3072_S1x3072_0_0
abbrev rBh : Rect S1x2048 := Rect.unit (s := S1x2048) ![0, 0] S1x2048.size inb_S1x2048_S1x2048_0_0

/-- What the body leaves in the result window's buffer, from the eight input blocks: its one store, of the gate
    arithmetic over the loaded blocks. -/
def outBlock (x0 : Vec F S256x1024 .f32) (x1 : Vec F S256x1024 .f32) (x2 : Vec F S1024x3072 .bf16) (x3 : Vec F S1024x3072 .bf16) (x4 : Vec F S1024x2048 .bf16) (x5 : Vec F S1024x2048 .bf16) (x6 : Vec F S1x3072 .f32) (x7 : Vec F S1x2048 .f32) : Vec F S256x1024 .f32 :=
  View.canon [⟨rAct, k0_pay1 (View.ld x1 rAct) (k0_pay2 (View.ld x0 rAct) (View.ld x2 rWi) (View.ld x3 rWi) (View.ld x6 rBi)) (k0_pay3 (View.ld x1 rAct) (View.ld x4 rWh) (View.ld x5 rWh) (View.ld x7 rBh)) (k0_pay4 (View.ld x0 rAct) (View.ld x2 rWi) (View.ld x3 rWi) (View.ld x6 rBi))⟩]

/-- The one store covers the buffer. -/
theorem outCover (p0 : Vec F S256x1024 .f32) (y : S256x1024.Idx) :
    ∃ pc ∈ ([⟨rAct, p0⟩] : List (View.Piece (Elt F) S256x1024 .f32)), y ∈ pc.1.set :=
  View.cover_of_tiled [⟨rAct, p0⟩] S256x1024.size (by rfl) y

/-! ## The body's triple -/

set_option maxHeartbeats 1000000 in
/-- The body on whole staging buffers — the inputs' at contents `x0 … x7`, the result's at anything — runs to its
    continuation with the inputs' as they were and the result's at `outBlock` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x3072 .f32) (harg7 : arg7.IsWhole) (arg8 : Memref sig .tc .vmem S1x2048 .f32) (harg8 : arg8.IsWhole) (arg9 : Memref sig .tc .vmem S256x1024 .f32) (harg9 : arg9.IsWhole)
    (x0 : Vec F S256x1024 .f32) (x1 : Vec F S256x1024 .f32) (x2 : Vec F S1024x3072 .bf16) (x3 : Vec F S1024x3072 .bf16) (x4 : Vec F S1024x2048 .bf16) (x5 : Vec F S1024x2048 .bf16) (x6 : Vec F S1x3072 .f32) (x7 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The pipeline's proof data -/

/-- On core `c`: the arrays as the region finds them; after the body at point `t` each input's buffer at its
    block and the result's at `outBlock` of the input blocks; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem held_0 (c : Dev nD) (t : Fin cfg0.N) (d) : (dats m 0 c).before 0 t d = iblk m c 0 t :=
  held_0_of m (dats m 0 c) (A_eq m c 0) (after_0 m c) t d
theorem held_1 (c : Dev nD) (t : Fin cfg0.N) (d) : (dats m 0 c).before 1 t d = iblk m c 1 t :=
  held_1_of m (dats m 0 c) (A_eq m c 1) (after_1 m c) t d
theorem held_2 (c : Dev nD) (t : Fin cfg0.N) (d) : (dats m 0 c).before 2 t d = iblk m c 2 t :=
  held_2_of m (dats m 0 c) (A_eq m c 2) (after_2 m c) t d
theorem held_3 (c : Dev nD) (t : Fin cfg0.N) (d) : (dats m 0 c).before 3 t d = iblk m c 3 t :=
  held_3_of m (dats m 0 c) (A_eq m c 3) (after_3 m c) t d
theorem held_4 (c : Dev nD) (t : Fin cfg0.N) (d) : (dats m 0 c).before 4 t d = iblk m c 4 t :=
  held_4_of m (dats m 0 c) (A_eq m c 4) (after_4 m c) t d
theorem held_5 (c : Dev nD) (t : Fin cfg0.N) (d) : (dats m 0 c).before 5 t d = iblk m c 5 t :=
  held_5_of m (dats m 0 c) (A_eq m c 5) (after_5 m c) t d
theorem held_6 (c : Dev nD) (t : Fin cfg0.N) (d) : (dats m 0 c).before 6 t d = iblk m c 6 t :=
  held_6_of m (dats m 0 c) (A_eq m c 6) (after_6 m c) t d
theorem held_7 (c : Dev nD) (t : Fin cfg0.N) (d) : (dats m 0 c).before 7 t d = iblk m c 7 t :=
  held_7_of m (dats m 0 c) (A_eq m c 7) (after_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6, held_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each staged array at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its fourteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frame

end
-- ==== Proof.IdealFrame.lean ====
/-
  The frame of the GRU kernel's program: every weakly fair execution of @main ends, nothing faults, and the
  fourteen argument arrays end as they were launched.

  @main is twenty host operations (the transposed weights laid side by side, the biases laid end to end, each
  weight panel split into its bf16 head and the bf16 remainder of what the head leaves) followed by ONE region over a
  grid of 64 points. At point t the region hands the body block t (256 rows) of the input batch and of the hidden
  batch, the four whole weight panels and the two whole bias rows, and writes back block t of the result. The body
  loads its eight input blocks whole, computes, and stores the result block whole — so what its output buffer holds
  afterwards is ONE piece, the body's arithmetic applied to the blocks it was handed. None of the host operations
  writes an argument array, the region writes only the result's array, and so every argument is found unchanged.
-/
import proofs.«111548_j48266842472681_2_alg».proof.Proof.Gen.KernelIdeal.Launch
import proofs.«111548_j48266842472681_2_alg».proof.Proof.Gen.KernelIdeal.Skeleton
import proofs.«111548_j48266842472681_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` as the region finds them: the launch memory after the twenty host operations. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations and then the region, entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 1: the region finds it as launched. -/
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 2: the region finds it as launched. -/
theorem entry_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 3: the region finds it as launched. -/
theorem entry_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 4: the region finds it as launched. -/
theorem entry_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 5: the region finds it as launched. -/
theorem entry_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 6: the region finds it as launched. -/
theorem entry_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 7: the region finds it as launched. -/
theorem entry_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 8: the region finds it as launched. -/
theorem entry_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 9: the region finds it as launched. -/
theorem entry_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 10: the region finds it as launched. -/
theorem entry_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 11: the region finds it as launched. -/
theorem entry_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 12: the region finds it as launched. -/
theorem entry_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the region writes argument 13: the region finds it as launched. -/
theorem entry_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetches it or
    not: an unfetched point has the block index of the point before, whose block the body left in place. -/
theorem held_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem held_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem held_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem held_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem held_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For proof data whose arrays are the region-entry contents, a final state with every staged array at what the
    library computes and every other unscoped buffer as the region found it has the fourteen arguments as launched:
    the two staged ones are inputs, never written back; the twelve others no window stages. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c),
      ((h c).2 main_arg11 (Pipeline.mem_restRefs_of main_arg11 (by decide) (by decide))).trans (entry_main_arg11 m c),
      ((h c).2 main_arg12 (Pipeline.mem_restRefs_of main_arg12 (by decide) (by decide))).trans (entry_main_arg12 m c),
      ((h c).2 main_arg13 (Pipeline.mem_restRefs_of main_arg13 (by decide) (by decide))).trans (entry_main_arg13 m c)⟩

/-- So a run to such states is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m dats hA r h c) h

/-! ## The body's accesses: every load and the one store address a whole buffer -/

abbrev rAct : Rect S256x1024 := Rect.unit (s := S256x1024) ![0, 0] S256x1024.size inb_S256x1024_S256x1024_0_0
abbrev rWi : Rect S1024x3072 := Rect.unit (s := S1024x3072) ![0, 0] S1024x3072.size inb_S1024x3072_S1024x3072_0_0
abbrev rWh : Rect S1024x2048 := Rect.unit (s := S1024x2048) ![0, 0] S1024x2048.size inb_S1024x2048_S1024x2048_0_0
abbrev rBi : Rect S1x3072 := Rect.unit (s := S1x3072) ![0, 0] S1x3072.size inb_S1x3072_S1x3072_0_0
abbrev rBh : Rect S1x2048 := Rect.unit (s := S1x2048) ![0, 0] S1x2048.size inb_S1x2048_S1x2048_0_0

/-- What the body leaves in the result window's buffer, from the eight input blocks: its one store, of the gate
    arithmetic over the loaded blocks. -/
def outBlock (x0 : Vec F S256x1024 .f32) (x1 : Vec F S256x1024 .f32) (x2 : Vec F S1024x3072 .bf16) (x3 : Vec F S1024x3072 .bf16) (x4 : Vec F S1024x2048 .bf16) (x5 : Vec F S1024x2048 .bf16) (x6 : Vec F S1x3072 .f32) (x7 : Vec F S1x2048 .f32) : Vec F S256x1024 .f32 :=
  View.canon [⟨rAct, k0_pay1 (View.ld x1 rAct) (k0_pay2 (View.ld x0 rAct) (View.ld x2 rWi) (View.ld x3 rWi) (View.ld x6 rBi)) (k0_pay3 (View.ld x1 rAct) (View.ld x4 rWh) (View.ld x5 rWh) (View.ld x7 rBh)) (k0_pay4 (View.ld x0 rAct) (View.ld x2 rWi) (View.ld x3 rWi) (View.ld x6 rBi))⟩]

/-- The one store covers the buffer. -/
theorem outCover (p0 : Vec F S256x1024 .f32) (y : S256x1024.Idx) :
    ∃ pc ∈ ([⟨rAct, p0⟩] : List (View.Piece (Elt F) S256x1024 .f32)), y ∈ pc.1.set :=
  View.cover_of_tiled [⟨rAct, p0⟩] S256x1024.size (by rfl) y

/-! ## The body's triple -/

set_option maxHeartbeats 1000000 in
/-- The body on whole staging buffers — the inputs' at contents `x0 … x7`, the result's at anything — runs to its
    continuation with the inputs' as they were and the result's at `outBlock` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x3072 .f32) (harg7 : arg7.IsWhole) (arg8 : Memref sig .tc .vmem S1x2048 .f32) (harg8 : arg8.IsWhole) (arg9 : Memref sig .tc .vmem S256x1024 .f32) (harg9 : arg9.IsWhole)
    (x0 : Vec F S256x1024 .f32) (x1 : Vec F S256x1024 .f32) (x2 : Vec F S1024x3072 .bf16) (x3 : Vec F S1024x3072 .bf16) (x4 : Vec F S1024x2048 .bf16) (x5 : Vec F S1024x2048 .bf16) (x6 : Vec F S1x3072 .f32) (x7 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (outCover _)

/-! ## The pipeline's proof data -/

/-- On core `c`: the arrays as the region finds them; after the body at point `t` each input's buffer at its
    block and the result's at `outBlock` of the input blocks; the invariant is the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem held_0 (c : Dev nD) (t : Fin cfg0.N) (d) : (dats m 0 c).before 0 t d = iblk m c 0 t :=
  held_0_of m (dats m 0 c) (A_eq m c 0) (after_0 m c) t d
theorem held_1 (c : Dev nD) (t : Fin cfg0.N) (d) : (dats m 0 c).before 1 t d = iblk m c 1 t :=
  held_1_of m (dats m 0 c) (A_eq m c 1) (after_1 m c) t d
theorem held_2 (c : Dev nD) (t : Fin cfg0.N) (d) : (dats m 0 c).before 2 t d = iblk m c 2 t :=
  held_2_of m (dats m 0 c) (A_eq m c 2) (after_2 m c) t d
theorem held_3 (c : Dev nD) (t : Fin cfg0.N) (d) : (dats m 0 c).before 3 t d = iblk m c 3 t :=
  held_3_of m (dats m 0 c) (A_eq m c 3) (after_3 m c) t d
theorem held_4 (c : Dev nD) (t : Fin cfg0.N) (d) : (dats m 0 c).before 4 t d = iblk m c 4 t :=
  held_4_of m (dats m 0 c) (A_eq m c 4) (after_4 m c) t d
theorem held_5 (c : Dev nD) (t : Fin cfg0.N) (d) : (dats m 0 c).before 5 t d = iblk m c 5 t :=
  held_5_of m (dats m 0 c) (A_eq m c 5) (after_5 m c) t d
theorem held_6 (c : Dev nD) (t : Fin cfg0.N) (d) : (dats m 0 c).before 6 t d = iblk m c 6 t :=
  held_6_of m (dats m 0 c) (A_eq m c 6) (after_6 m c) t d
theorem held_7 (c : Dev nD) (t : Fin cfg0.N) (d) : (dats m 0 c).before 7 t d = iblk m c 7 t :=
  held_7_of m (dats m 0 c) (A_eq m c 7) (after_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6, held_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each staged array at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its fourteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frame

end
-- ==== Proof.BodyValue.lean ====
/-
  The body's arithmetic at one entry of the result block, on the extended reals.

  The body multiplies the block of inputs x (256 × 1024) into a wide panel of three gates' weights side by side
  (1024 × 3072) and the block of hidden states h into a panel of two gates' weights (1024 × 2048). Each product is taken
  three times over a split of its factors into a head and a remainder: head·head + head·rest + rest·head, where the
  block's own remainder is x − x (the head of x is x itself on the extended reals). The gates are then columns
  q, 1024 + q, 2048 + q of the first sum and q, 1024 + q of the second.
-/
import proofs.«111548_j48266842472681_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- Column `q` of gate `s` in the three-gate panel. -/
abbrev colI (s : Fin 3) (q : Fin 1024) : Fin 3072 := ⟨1024 * s.val + q.val, by have := s.isLt; have := q.isLt; omega⟩
/-- Column `q` of gate `s` in the two-gate panel. -/
abbrev colH (s : Fin 2) (q : Fin 1024) : Fin 2048 := ⟨1024 * s.val + q.val, by have := s.isLt; have := q.isLt; omega⟩

/-- The contraction's coordinates: at output `(p, c)` and contraction position `κ` the left factor sits at `(p, κ)` and the right
    factor at `(κ, c)`. -/
theorem mmI_l0 (i : S256x3072.Idx) (κ : dot_S256x1024_S1024x3072_S256x3072_1_0_0_1_n_n.contr.Idx) : (dot_S256x1024_S1024x3072_S256x3072_1_0_0_1_n_n.lhsIdx i κ 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem mmI_l1 (i : S256x3072.Idx) (κ : dot_S256x1024_S1024x3072_S256x3072_1_0_0_1_n_n.contr.Idx) : (dot_S256x1024_S1024x3072_S256x3072_1_0_0_1_n_n.lhsIdx i κ 1).val = (κ ⟨0, by decide⟩).val :=
  dot_S256x1024_S1024x3072_S256x3072_1_0_0_1_n_n.lhsIdx_val_of_single rfl i κ
theorem mmI_r0 (i : S256x3072.Idx) (κ : dot_S256x1024_S1024x3072_S256x3072_1_0_0_1_n_n.contr.Idx) : (dot_S256x1024_S1024x3072_S256x3072_1_0_0_1_n_n.rhsIdx i κ 0).val = (κ ⟨0, by decide⟩).val :=
  dot_S256x1024_S1024x3072_S256x3072_1_0_0_1_n_n.rhsIdx_val_of_single rfl i κ
theorem mmI_r1 (i : S256x3072.Idx) (κ : dot_S256x1024_S1024x3072_S256x3072_1_0_0_1_n_n.contr.Idx) : (dot_S256x1024_S1024x3072_S256x3072_1_0_0_1_n_n.rhsIdx i κ 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- A 256 × 1024 block times a 1024 × 3072 panel, accumulated into zero, read at `(p, c)`: the row `p` of the block against the
    column `c` of the panel. -/
theorem mmI_apply (l : FVec Ideal S256x1024 .bf16) (r : FVec Ideal S1024x3072 .bf16) (p : Fin 256) (c : Fin 3072) :
    matmul dot_S256x1024_S1024x3072_S256x3072_1_0_0_1_n_n none l r (constant S256x3072 .f32 0x00000000#32) (ix2 p c) = ∑ k : Fin 1024, l (ix2 p k) * r (ix2 k c) := by
  simp only [matmul]
  rw [Ideal.matmul_constant_zero_apply, ← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 p c) ((ValueIdx.contrEquiv1 dot_S256x1024_S1024x3072_S256x3072_1_0_0_1_n_n 1024 rfl rfl).symm k) = ix2 p k := funext fun a => Fin.ext (by
    match a with
    | ⟨0, _⟩ => exact mmI_l0 _ _
    | ⟨1, _⟩ => exact (mmI_l1 _ _).trans hk)
  have er : dot_S256x1024_S1024x3072_S256x3072_1_0_0_1_n_n.rhsIdx (ix2 p c) ((ValueIdx.contrEquiv1 dot_S256x1024_S1024x3072_S256x3072_1_0_0_1_n_n 1024 rfl rfl).symm k) = ix2 k c := funext fun a => Fin.ext (by
    match a with
    | ⟨0, _⟩ => exact (mmI_r0 _ _).trans hk
    | ⟨1, _⟩ => exact mmI_r1 _ _)
  rw [el, er]

/-- The contraction's coordinates: at output `(p, c)` and contraction position `κ` the left factor sits at `(p, κ)` and the right
    factor at `(κ, c)`. -/
theorem mmH_l0 (i : S256x2048.Idx) (κ : dot_S256x1024_S1024x2048_S256x2048_1_0_0_1_n_n.contr.Idx) : (dot_S256x1024_S1024x2048_S256x2048_1_0_0_1_n_n.lhsIdx i κ 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem mmH_l1 (i : S256x2048.Idx) (κ : dot_S256x1024_S1024x2048_S256x2048_1_0_0_1_n_n.contr.Idx) : (dot_S256x1024_S1024x2048_S256x2048_1_0_0_1_n_n.lhsIdx i κ 1).val = (κ ⟨0, by decide⟩).val :=
  dot_S256x1024_S1024x2048_S256x2048_1_0_0_1_n_n.lhsIdx_val_of_single rfl i κ
theorem mmH_r0 (i : S256x2048.Idx) (κ : dot_S256x1024_S1024x2048_S256x2048_1_0_0_1_n_n.contr.Idx) : (dot_S256x1024_S1024x2048_S256x2048_1_0_0_1_n_n.rhsIdx i κ 0).val = (κ ⟨0, by decide⟩).val :=
  dot_S256x1024_S1024x2048_S256x2048_1_0_0_1_n_n.rhsIdx_val_of_single rfl i κ
theorem mmH_r1 (i : S256x2048.Idx) (κ : dot_S256x1024_S1024x2048_S256x2048_1_0_0_1_n_n.contr.Idx) : (dot_S256x1024_S1024x2048_S256x2048_1_0_0_1_n_n.rhsIdx i κ 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- A 256 × 1024 block times a 1024 × 2048 panel, accumulated into zero, read at `(p, c)`: the row `p` of the block against the
    column `c` of the panel. -/
theorem mmH_apply (l : FVec Ideal S256x1024 .bf16) (r : FVec Ideal S1024x2048 .bf16) (p : Fin 256) (c : Fin 2048) :
    matmul dot_S256x1024_S1024x2048_S256x2048_1_0_0_1_n_n none l r (constant S256x2048 .f32 0x00000000#32) (ix2 p c) = ∑ k : Fin 1024, l (ix2 p k) * r (ix2 k c) := by
  simp only [matmul]
  rw [Ideal.matmul_constant_zero_apply, ← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p c) ((ValueIdx.contrEquiv1 dot_S256x1024_S1024x2048_S256x2048_1_0_0_1_n_n 1024 rfl rfl).symm k) = ix2 p k := funext fun a => Fin.ext (by
    match a with
    | ⟨0, _⟩ => exact mmH_l0 _ _
    | ⟨1, _⟩ => exact (mmH_l1 _ _).trans hk)
  have er : dot_S256x1024_S1024x2048_S256x2048_1_0_0_1_n_n.rhsIdx (ix2 p c) ((ValueIdx.contrEquiv1 dot_S256x1024_S1024x2048_S256x2048_1_0_0_1_n_n 1024 rfl rfl).symm k) = ix2 k c := funext fun a => Fin.ext (by
    match a with
    | ⟨0, _⟩ => exact (mmH_r0 _ _).trans hk
    | ⟨1, _⟩ => exact mmH_r1 _ _)
  rw [el, er]

/-- Gate columns of the three-gate panel: reset, update, candidate. -/
abbrev colR (q : Fin 1024) : Fin 3072 := ⟨q.val, by have := q.isLt; omega⟩
abbrev colZ (q : Fin 1024) : Fin 3072 := ⟨1024 + q.val, by have := q.isLt; omega⟩
abbrev colN (q : Fin 1024) : Fin 3072 := ⟨2048 + q.val, by have := q.isLt; omega⟩
/-- Gate columns of the two-gate panel: reset, candidate. -/
abbrev colHr (q : Fin 1024) : Fin 2048 := ⟨q.val, by have := q.isLt; omega⟩
abbrev colHn (q : Fin 1024) : Fin 2048 := ⟨1024 + q.val, by have := q.isLt; omega⟩

/-- Row `p` of a block against column `c` of a panel. -/
def dotAt {N : ℕ} (x : (⟨2, ![256, 1024]⟩ : Shape).Idx → EReal) (w : (⟨2, ![1024, N]⟩ : Shape).Idx → EReal) (p : Fin 256) (c : Fin N) : EReal :=
  ∑ k : Fin 1024, x (ix2 p k) * w (ix2 k c)

/-- The split product at `(p, c)`: block · head + block · rest + (block − block) · head, plus the bias row's entry. -/
def splitLin {N : ℕ} (x : (⟨2, ![256, 1024]⟩ : Shape).Idx → EReal) (wh wl : (⟨2, ![1024, N]⟩ : Shape).Idx → EReal)
    (b : (⟨2, ![1, N]⟩ : Shape).Idx → EReal) (p : Fin 256) (c : Fin N) : EReal :=
  ((dotAt x wh p c + dotAt x wl p c) + dotAt (fun i => x i - x i) wh p c) + b (ix2 (0 : Fin 1) c)

/-- The gate arithmetic on scalars: from the three input-side pre-activations `ri zi ni`, the two hidden-side ones `rh nh`
    and the hidden entry `hv`: `(1 − σ(zi + rh)) · tanh (ni + σ(ri + rh) · nh) + σ(zi + rh) · hv`. -/
def gates (ri zi ni rh nh hv : EReal) : EReal :=
  (Ideal.ofBits .f32 0x3F800000#32 - Ideal.logistic (zi + rh)) * Ideal.tanh (ni + Ideal.logistic (ri + rh) * nh)
    + Ideal.logistic (zi + rh) * hv

/-- The input-side sum at `(p, c)`. -/
theorem pay2_apply (v0 : Vec Ideal S256x1024 .f32) (v10 v12 : Vec Ideal S1024x3072 .bf16) (v23 : Vec Ideal S1x3072 .f32)
    (p : Fin 256) (c : Fin 3072) : k0_pay2 v0 v10 v12 v23 (ix2 p c) = splitLin v0 v10 v12 v23 p c := by
  unfold k0_pay2
  rw [shapeCast_self v10, shapeCast_self v12, shapeCast_self v23]
  refine (congrArg₂ (· + ·) (congrArg₂ (· + ·) (congrArg₂ (· + ·) (mmI_apply _ _ p c) (mmI_apply _ _ p c)) (mmI_apply _ _ p c))
    (broadcastTo_1b_ab_apply _ _ p c)).trans ?_
  rfl

/-- The hidden-side sum at `(p, c)`. -/
theorem pay3_apply (v1 : Vec Ideal S256x1024 .f32) (v14 v16 : Vec Ideal S1024x2048 .bf16) (v32 : Vec Ideal S1x2048 .f32)
    (p : Fin 256) (c : Fin 2048) : k0_pay3 v1 v14 v16 v32 (ix2 p c) = splitLin v1 v14 v16 v32 p c := by
  unfold k0_pay3
  rw [shapeCast_self v14, shapeCast_self v16, shapeCast_self v32]
  refine (congrArg₂ (· + ·) (congrArg₂ (· + ·) (congrArg₂ (· + ·) (mmH_apply _ _ p c) (mmH_apply _ _ p c)) (mmH_apply _ _ p c))
    (broadcastTo_1b_ab_apply _ _ p c)).trans ?_
  rfl

/-- The reset gate's input-side column is the first third of the input-side sum. -/
theorem pay4_apply (v0 : Vec Ideal S256x1024 .f32) (v10 v12 : Vec Ideal S1024x3072 .bf16) (v23 : Vec Ideal S1x3072 .f32)
    (p : Fin 256) (q : Fin 1024) : k0_pay4 v0 v10 v12 v23 (ix2 p q) = k0_pay2 v0 v10 v12 v23 (ix2 p (colR q)) := by
  unfold k0_pay4
  exact ValueIdx.slice2_axis1_apply 0 _ slices_S256x3072_o0_0_S256x1024 p q (colR q) (Nat.zero_add _).symm

/-- The stored entry at `(p, q)`: the gate arithmetic on the five gate columns and the hidden entry. -/
theorem pay1_apply (v1 : Vec Ideal S256x1024 .f32) (v26 : FVec Ideal S256x3072 .f32) (v35 : FVec Ideal S256x2048 .f32)
    (v36 : FVec Ideal S256x1024 .f32) (p : Fin 256) (q : Fin 1024) :
    k0_pay1 v1 v26 v35 v36 (ix2 p q)
      = gates (v36 (ix2 p q)) (v26 (ix2 p (colZ q))) (v26 (ix2 p (colN q))) (v35 (ix2 p (colHr q))) (v35 (ix2 p (colHn q))) (v1 (ix2 p q)) := by
  show gates (v36 (ix2 p q))
      (extractStridedSlice S256x1024 ![0, 1024] v26 slices_S256x3072_o0_1024_S256x1024 (ix2 p q))
      (extractStridedSlice S256x1024 ![0, 2048] v26 slices_S256x3072_o0_2048_S256x1024 (ix2 p q))
      (extractStridedSlice S256x1024 ![0, 0] v35 slices_S256x2048_o0_0_S256x1024 (ix2 p q))
      (extractStridedSlice S256x1024 ![0, 1024] v35 slices_S256x2048_o0_1024_S256x1024 (ix2 p q)) (v1 (ix2 p q)) = _
  rw [ValueIdx.slice2_axis1_apply 1024 v26 slices_S256x3072_o0_1024_S256x1024 p q (colZ q) rfl,
    ValueIdx.slice2_axis1_apply 2048 v26 slices_S256x3072_o0_2048_S256x1024 p q (colN q) rfl,
    ValueIdx.slice2_axis1_apply 0 v35 slices_S256x2048_o0_0_S256x1024 p q (colHr q) (Nat.zero_add _).symm,
    ValueIdx.slice2_axis1_apply 1024 v35 slices_S256x2048_o0_1024_S256x1024 p q (colHn q) rfl]

/-- THE BLOCK'S ENTRY: what the body stores at `(p, q)`, from the eight blocks it loaded. -/
theorem stored_apply (x0 x1 : Vec Ideal S256x1024 .f32) (x2 x3 : Vec Ideal S1024x3072 .bf16) (x4 x5 : Vec Ideal S1024x2048 .bf16)
    (x6 : Vec Ideal S1x3072 .f32) (x7 : Vec Ideal S1x2048 .f32) (p : Fin 256) (q : Fin 1024) :
    k0_pay1 x1 (k0_pay2 x0 x2 x3 x6) (k0_pay3 x1 x4 x5 x7) (k0_pay4 x0 x2 x3 x6) (ix2 p q)
      = gates (splitLin x0 x2 x3 x6 p (colR q)) (splitLin x0 x2 x3 x6 p (colZ q)) (splitLin x0 x2 x3 x6 p (colN q))
          (splitLin x1 x4 x5 x7 p (colHr q)) (splitLin x1 x4 x5 x7 p (colHn q)) (x1 (ix2 p q)) := by
  rw [pay1_apply, pay4_apply, pay2_apply, pay2_apply, pay2_apply, pay3_apply, pay3_apply]

end Cert.KernelIdeal.Body

end
-- ==== Proof.HostPrefix.lean ====
/-
  What the region finds in the six arrays the host operations write before it, entry by entry.

  The three input-side weight matrices are transposed and laid side by side (1024 × 3072): column q of gate s holds row q of
  that gate's matrix, so entry (k, 1024·s + q) of the panel is W_s[q, k]. The two hidden-side matrices likewise (1024 × 2048).
  The biases are laid end to end and given a leading unit axis. Each panel is then split into its bf16 head — on the
  extended reals the panel itself — and the bf16 head of (panel − head) — the panel minus itself.
-/
import proofs.«111548_j48266842472681_2_alg».proof.Proof.IdealFrame
import proofs.«111548_j48266842472681_2_alg».proof.Proof.BodyValue
import Idealize.ShloMosaic.Lib.StableHlo.Run

noncomputable section

namespace Cert.KernelIdeal.Prefix

open Cert.KernelIdeal Cert.KernelIdeal.Gen Cert.KernelIdeal.Frame Cert.KernelIdeal.Body
open Idealize.ShloMosaic Idealize.ShloMosaic.TcCoe Idealize.SL.Sem Idealize.ShloMosaic.StableHlo Idealize.ShloMosaic.ValueIdx

/-- A weight matrix transposed: entry (k, q) of the result is entry (q, k) of the matrix. -/
abbrev tr (a : S1024x1024.Idx → EReal) : S1024x1024.Idx → EReal := transpose S1024x1024 [1, 0] a transposes_S1024x1024_S1024x1024_1_0

/-- The pieces laid side by side or end to end. -/
abbrev piecesI (a2 a6 a10 : S1024x1024.Idx → EReal) : List ((s : Shape) × (s.Idx → EReal)) := [⟨S1024x1024, tr a2⟩, ⟨S1024x1024, tr a6⟩, ⟨S1024x1024, tr a10⟩]
abbrev piecesH (a4 a12 : S1024x1024.Idx → EReal) : List ((s : Shape) × (s.Idx → EReal)) := [⟨S1024x1024, tr a4⟩, ⟨S1024x1024, tr a12⟩]
abbrev piecesBI (a3 a7 a11 : S1024.Idx → EReal) : List ((s : Shape) × (s.Idx → EReal)) := [⟨S1024, a3⟩, ⟨S1024, a7⟩, ⟨S1024, a11⟩]
abbrev piecesBH (a5 a13 : S1024.Idx → EReal) : List ((s : Shape) × (s.Idx → EReal)) := [⟨S1024, a5⟩, ⟨S1024, a13⟩]

/-- The three input-side matrices transposed and laid side by side. -/
def panelI (a2 a6 a10 : S1024x1024.Idx → EReal) : S1024x3072.Idx → EReal :=
  concatenate S1024x3072 1 (piecesI a2 a6 a10) concatenates_S1024x1024_S1024x1024_S1024x1024_S1024x3072_d1

/-- The two hidden-side matrices transposed and laid side by side. -/
def panelH (a4 a12 : S1024x1024.Idx → EReal) : S1024x2048.Idx → EReal :=
  concatenate S1024x2048 1 (piecesH a4 a12) concatenates_S1024x1024_S1024x1024_S1024x2048_d1

/-- The three input-side biases end to end, as one row. -/
def biasI (a3 a7 a11 : S1024.Idx → EReal) : S1x3072.Idx → EReal :=
  shapeCast S1x3072 (concatenate S3072 0 (piecesBI a3 a7 a11) concatenates_S1024_S1024_S1024_S3072_d0) shapeCasts_S3072_S1x3072

/-- The two hidden-side biases end to end, as one row. -/
def biasH (a5 a13 : S1024.Idx → EReal) : S1x2048.Idx → EReal :=
  shapeCast S1x2048 (concatenate S2048 0 (piecesBH a5 a13) concatenates_S1024_S1024_S2048_d0) shapeCasts_S2048_S1x2048

/-! ## The panels and the bias rows read at an entry -/

section Read
variable (a2 a4 a6 a10 a12 : S1024x1024.Idx → EReal) (a3 a5 a7 a11 a13 : S1024.Idx → EReal) (k q : Fin 1024)

theorem panelI_R : panelI a2 a6 a10 (ix2 k (colR q)) = a2 (ix2 q k) := by
  unfold panelI
  refine (concatenate_apply_piece (t := S1024x3072) (1 : Fin 2) (piecesI a2 a6 a10) concatenates_S1024x1024_S1024x1024_S1024x1024_S1024x3072_d1 (ix2 k (colR q)) 0 (by show 0 < 3; omega)
    S1024x1024 _ rfl rfl 0 rfl (ix2 k q) (fun b => match b with | ⟨0, _⟩ => fun _ => rfl | ⟨1, _⟩ => fun h => absurd rfl h) (Nat.zero_add _)).trans
    (transpose_ix2_apply a2 _ k q)

theorem panelI_Z : panelI a2 a6 a10 (ix2 k (colZ q)) = a6 (ix2 q k) := by
  unfold panelI
  refine (concatenate_apply_piece (t := S1024x3072) (1 : Fin 2) (piecesI a2 a6 a10) concatenates_S1024x1024_S1024x1024_S1024x1024_S1024x3072_d1 (ix2 k (colZ q)) 1 (by show 1 < 3; omega)
    S1024x1024 _ rfl rfl 1024 rfl (ix2 k q) (fun b => match b with | ⟨0, _⟩ => fun _ => rfl | ⟨1, _⟩ => fun h => absurd rfl h) rfl).trans
    (transpose_ix2_apply a6 _ k q)

theorem panelI_N : panelI a2 a6 a10 (ix2 k (colN q)) = a10 (ix2 q k) := by
  unfold panelI
  refine (concatenate_apply_piece (t := S1024x3072) (1 : Fin 2) (piecesI a2 a6 a10) concatenates_S1024x1024_S1024x1024_S1024x1024_S1024x3072_d1 (ix2 k (colN q)) 2 (by show 2 < 3; omega)
    S1024x1024 _ rfl rfl 2048 rfl (ix2 k q) (fun b => match b with | ⟨0, _⟩ => fun _ => rfl | ⟨1, _⟩ => fun h => absurd rfl h) rfl).trans
    (transpose_ix2_apply a10 _ k q)

theorem panelH_R : panelH a4 a12 (ix2 k (colHr q)) = a4 (ix2 q k) := by
  unfold panelH
  refine (concatenate_apply_piece (t := S1024x2048) (1 : Fin 2) (piecesH a4 a12) concatenates_S1024x1024_S1024x1024_S1024x2048_d1 (ix2 k (colHr q)) 0 (by show 0 < 2; omega)
    S1024x1024 _ rfl rfl 0 rfl (ix2 k q) (fun b => match b with | ⟨0, _⟩ => fun _ => rfl | ⟨1, _⟩ => fun h => absurd rfl h) (Nat.zero_add _)).trans
    (transpose_ix2_apply a4 _ k q)

theorem panelH_N : panelH a4 a12 (ix2 k (colHn q)) = a12 (ix2 q k) := by
  unfold panelH
  refine (concatenate_apply_piece (t := S1024x2048) (1 : Fin 2) (piecesH a4 a12) concatenates_S1024x1024_S1024x1024_S1024x2048_d1 (ix2 k (colHn q)) 1 (by show 1 < 2; omega)
    S1024x1024 _ rfl rfl 1024 rfl (ix2 k q) (fun b => match b with | ⟨0, _⟩ => fun _ => rfl | ⟨1, _⟩ => fun h => absurd rfl h) rfl).trans
    (transpose_ix2_apply a12 _ k q)

theorem biasI_R : biasI a3 a7 a11 (ix2 (0 : Fin 1) (colR q)) = a3 (ix1 q) := by
  unfold biasI
  refine (shapeCast_a_1a_apply _ shapeCasts_S3072_S1x3072 0 (colR q)).trans ?_
  exact concatenate_apply_piece (t := S3072) (0 : Fin 1) (piecesBI a3 a7 a11) concatenates_S1024_S1024_S1024_S3072_d0 (ix1 (colR q)) 0 (by show 0 < 3; omega)
    S1024 _ rfl rfl 0 rfl (ix1 q) (fun b => match b with | ⟨0, _⟩ => fun h => absurd rfl h) (Nat.zero_add _)

theorem biasI_Z : biasI a3 a7 a11 (ix2 (0 : Fin 1) (colZ q)) = a7 (ix1 q) := by
  unfold biasI
  refine (shapeCast_a_1a_apply _ shapeCasts_S3072_S1x3072 0 (colZ q)).trans ?_
  exact concatenate_apply_piece (t := S3072) (0 : Fin 1) (piecesBI a3 a7 a11) concatenates_S1024_S1024_S1024_S3072_d0 (ix1 (colZ q)) 1 (by show 1 < 3; omega)
    S1024 _ rfl rfl 1024 rfl (ix1 q) (fun b => match b with | ⟨0, _⟩ => fun h => absurd rfl h) rfl

theorem biasI_N : biasI a3 a7 a11 (ix2 (0 : Fin 1) (colN q)) = a11 (ix1 q) := by
  unfold biasI
  refine (shapeCast_a_1a_apply _ shapeCasts_S3072_S1x3072 0 (colN q)).trans ?_
  exact concatenate_apply_piece (t := S3072) (0 : Fin 1) (piecesBI a3 a7 a11) concatenates_S1024_S1024_S1024_S3072_d0 (ix1 (colN q)) 2 (by show 2 < 3; omega)
    S1024 _ rfl rfl 2048 rfl (ix1 q) (fun b => match b with | ⟨0, _⟩ => fun h => absurd rfl h) rfl

theorem biasH_R : biasH a5 a13 (ix2 (0 : Fin 1) (colHr q)) = a5 (ix1 q) := by
  unfold biasH
  refine (shapeCast_a_1a_apply _ shapeCasts_S2048_S1x2048 0 (colHr q)).trans ?_
  exact concatenate_apply_piece (t := S2048) (0 : Fin 1) (piecesBH a5 a13) concatenates_S1024_S1024_S2048_d0 (ix1 (colHr q)) 0 (by show 0 < 2; omega)
    S1024 _ rfl rfl 0 rfl (ix1 q) (fun b => match b with | ⟨0, _⟩ => fun h => absurd rfl h) (Nat.zero_add _)

theorem biasH_N : biasH a5 a13 (ix2 (0 : Fin 1) (colHn q)) = a13 (ix1 q) := by
  unfold biasH
  refine (shapeCast_a_1a_apply _ shapeCasts_S2048_S1x2048 0 (colHn q)).trans ?_
  exact concatenate_apply_piece (t := S2048) (0 : Fin 1) (piecesBH a5 a13) concatenates_S1024_S1024_S2048_d0 (ix1 (colHn q)) 1 (by show 1 < 2; omega)
    S1024 _ rfl rfl 1024 rfl (ix1 q) (fun b => match b with | ⟨0, _⟩ => fun h => absurd rfl h) rfl

end Read

/-! ## The six arrays as the region finds them -/

variable (m : (ℓ : Loc nD τ sig) → Buf (Elt Ideal) ℓ) (c : Dev nD)

/-- The head of the input-side panel is the panel. -/
theorem entry_v11 : (V m c main_v11 : S1024x3072.Idx → EReal) = panelI (m ((c : Thread nD τ).loc main_arg2)) (m ((c : Thread nD τ).loc main_arg6)) (m ((c : Thread nD τ).loc main_arg10)) := by
  dsimp only [V, hostOps0]
  after_results
  rfl

/-- Its remainder is the panel minus itself, entry by entry. -/
theorem entry_v14 : (V m c main_v14 : S1024x3072.Idx → EReal) = fun i => panelI (m ((c : Thread nD τ).loc main_arg2)) (m ((c : Thread nD τ).loc main_arg6)) (m ((c : Thread nD τ).loc main_arg10)) i - panelI (m ((c : Thread nD τ).loc main_arg2)) (m ((c : Thread nD τ).loc main_arg6)) (m ((c : Thread nD τ).loc main_arg10)) i := by
  dsimp only [V, hostOps0]
  after_results
  rfl

/-- The head of the hidden-side panel is the panel. -/
theorem entry_v15 : (V m c main_v15 : S1024x2048.Idx → EReal) = panelH (m ((c : Thread nD τ).loc main_arg4)) (m ((c : Thread nD τ).loc main_arg12)) := by
  dsimp only [V, hostOps0]
  after_results
  rfl

/-- Its remainder is the panel minus itself, entry by entry. -/
theorem entry_v18 : (V m c main_v18 : S1024x2048.Idx → EReal) = fun i => panelH (m ((c : Thread nD τ).loc main_arg4)) (m ((c : Thread nD τ).loc main_arg12)) i - panelH (m ((c : Thread nD τ).loc main_arg4)) (m ((c : Thread nD τ).loc main_arg12)) i := by
  dsimp only [V, hostOps0]
  after_results
  rfl

/-- The input-side bias row. -/
theorem entry_v8 : (V m c main_v8 : S1x3072.Idx → EReal) = biasI (m ((c : Thread nD τ).loc main_arg3)) (m ((c : Thread nD τ).loc main_arg7)) (m ((c : Thread nD τ).loc main_arg11)) := by
  dsimp only [V, hostOps0]
  after_results
  rfl

/-- The hidden-side bias row. -/
theorem entry_v10 : (V m c main_v10 : S1x2048.Idx → EReal) = biasH (m ((c : Thread nD τ).loc main_arg5)) (m ((c : Thread nD τ).loc main_arg13)) := by
  dsimp only [V, hostOps0]
  after_results
  rfl

end Cert.KernelIdeal.Prefix

end
-- ==== Proof.Spec.lean ====
/-
  The GRU cell update both programs compute, index by index, on the extended reals.

  With x the input batch (16384 × 1024), h the hidden batch (16384 × 1024), and for each gate a weight matrix W
  (1024 × 1024, one row per output unit) and a bias b (1024):

      lin x W b (r, j) = Σ_k x[r, k] · W[j, k] + b[j]                       (a row of x against a row of W)
      rh = lin h W_rh b_rh
      r  = σ (lin x W_ri b_ri + rh)
      z  = σ (lin x W_zi b_zi + rh)              (the update gate reuses the reset gate's hidden projection)
      n  = tanh (lin x W_ni b_ni + r · lin h W_nh b_nh)
      h' = (1 − z) · n + z · h

  where σ v = 1 / (1 + e^(−v)) and "1" is the value the float word 0x3F800000 denotes.
-/
import Idealize.ShloMosaic.PureOps.Ideal
import Idealize.ShloMosaic.Lib.ValueIdx

noncomputable section

namespace Cert.Gru

open Idealize.ShloMosaic Idealize.ShloMosaic.ValueIdx
open scoped BigOperators

/-- The batch of activations: 16384 rows of 1024 features. -/
abbrev Acts : Shape := ⟨2, ![16384, 1024]⟩
/-- One gate's weights: 1024 output units, each a row of 1024 input features. -/
abbrev Wts : Shape := ⟨2, ![1024, 1024]⟩
/-- One gate's bias: one entry per output unit. -/
abbrev Bias : Shape := ⟨1, ![1024]⟩

/-- The number one as both programs spell it: the value of the float word `0x3F800000`. -/
abbrev one : EReal := Ideal.ofBits .f32 0x3F800000#32

/-- A gate's affine pre-activation at row `r`, unit `j`: the row of `x` against the row of `W`, plus the bias. -/
def lin (x : Acts.Idx → EReal) (W : Wts.Idx → EReal) (b : Bias.Idx → EReal) (r : Fin 16384) (j : Fin 1024) : EReal :=
  (∑ k : Fin 1024, x (ix2 r k) * W (ix2 j k)) + b (ix1 j)

/-- The logistic function written out: `1 / (1 + e^(−v))`. -/
def sigm (v : EReal) : EReal := Ideal.div one (one + Ideal.exp (-v))

/-- The next hidden state, entry by entry. -/
def cell (x h : Acts.Idx → EReal)
    (Wri : Wts.Idx → EReal) (bri : Bias.Idx → EReal) (Wrh : Wts.Idx → EReal) (brh : Bias.Idx → EReal)
    (Wzi : Wts.Idx → EReal) (bzi : Bias.Idx → EReal)
    (Wni : Wts.Idx → EReal) (bni : Bias.Idx → EReal) (Wnh : Wts.Idx → EReal) (bnh : Bias.Idx → EReal) :
    Acts.Idx → EReal := fun i =>
  (one - sigm (lin x Wzi bzi (i 0) (i 1) + lin h Wrh brh (i 0) (i 1)))
      * Ideal.tanh (lin x Wni bni (i 0) (i 1)
          + sigm (lin x Wri bri (i 0) (i 1) + lin h Wrh brh (i 0) (i 1)) * lin h Wnh bnh (i 0) (i 1))
    + sigm (lin x Wzi bzi (i 0) (i 1) + lin h Wrh brh (i 0) (i 1)) * h i

end Cert.Gru

end
-- ==== Proof.Collapse.lean ====
/-
  The algebra that collapses the kernel's split products and names its gate arithmetic by the specification's.

  On the extended reals a real number minus itself is zero, so the third term of a split product — (block − block) against the
  head of the weights — is a sum of zeros; when the remainder of the weights is zero the second term is a sum of zeros as well,
  and the split product is the plain row-by-column product plus the bias. The logistic function is the specification's
  `1 / (1 + e^(−v))` because the float word `0x3F800000` denotes the number one.
-/
import proofs.«111548_j48266842472681_2_alg».proof.Proof.BodyValue
import proofs.«111548_j48266842472681_2_alg».proof.Proof.Spec
import Idealize.ShloMosaic.PureOps.Ideal.Laws
import Idealize.ShloMosaic.Lib.IdealHost

noncomputable section

namespace Cert.KernelIdeal.Collapse

open Cert.KernelIdeal.Body Idealize.ShloMosaic Idealize.ShloMosaic.ValueIdx
open scoped BigOperators

/-- The float word `0x3F800000` (sign 0, exponent field 127, fraction 0) denotes the number one. -/
theorem one_eq : Ideal.ofBits .f32 0x3F800000#32 = (1 : EReal) := Ideal.ofBits_one_f32

/-- The logistic function `1 / (1 + e^(−v))` is the specification's `σ`, which writes its two ones as the float word of one. -/
theorem logistic_eq_sigm (v : EReal) : Ideal.logistic v = Cert.Gru.sigm v := by
  unfold Ideal.logistic Cert.Gru.sigm
  rw [show Cert.Gru.one = (1 : EReal) from one_eq]

/-- A real number minus itself is zero (on the extended reals this fails exactly at the two infinities). -/
theorem sub_self_of_real {x : EReal} (h : ∃ r : ℝ, x = (r : EReal)) : x - x = 0 := by
  obtain ⟨r, rfl⟩ := h
  rw [← EReal.coe_sub, sub_self, EReal.coe_zero]

/-- The split product collapses: with the block's row `p` real and the weights' remainder zero in column `c`,
    `Σ x·w_head + Σ x·w_rest + Σ (x − x)·w_head + b = Σ x·w_head + b`, the second sum being `Σ x·0` and the third `Σ 0·w_head`. -/
theorem splitLin_collapse {N : ℕ} (x : (⟨2, ![256, 1024]⟩ : Shape).Idx → EReal)
    (wh wl : (⟨2, ![1024, N]⟩ : Shape).Idx → EReal) (b : (⟨2, ![1, N]⟩ : Shape).Idx → EReal) (p : Fin 256) (c : Fin N)
    (hx : ∀ k : Fin 1024, ∃ r : ℝ, x (ix2 p k) = (r : EReal)) (hl : ∀ k : Fin 1024, wl (ix2 k c) = 0) :
    splitLin x wh wl b p c = dotAt x wh p c + b (ix2 (0 : Fin 1) c) := by
  have h2 : dotAt x wl p c = 0 :=
    Finset.sum_eq_zero fun k _ => by rw [hl k, mul_zero]
  have h3 : dotAt (fun i => x i - x i) wh p c = 0 :=
    Finset.sum_eq_zero fun k _ => by
      show (x (ix2 p k) - x (ix2 p k)) * wh (ix2 k c) = 0
      rw [sub_self_of_real (hx k), zero_mul]
  unfold splitLin
  rw [h2, h3, add_zero, add_zero]

/-- The kernel's gate arithmetic is the specification's: `(1 − σ(zi + rh)) · tanh (ni + σ(ri + rh) · nh) + σ(zi + rh) · hv`, with the
    logistic function read as `σ` and the leading one left as its float word. -/
theorem gates_eq (ri zi ni rh nh hv : EReal) :
    gates ri zi ni rh nh hv
      = (Cert.Gru.one - Cert.Gru.sigm (zi + rh)) * Ideal.tanh (ni + Cert.Gru.sigm (ri + rh) * nh)
        + Cert.Gru.sigm (zi + rh) * hv := by
  unfold gates
  rw [logistic_eq_sigm, logistic_eq_sigm]

end Cert.KernelIdeal.Collapse

end
-- ==== Proof.KernelValue.lean ====
/-
  The result array of the GRU kernel's program, entry by entry, under finite inputs: it is the cell update of the
  specification.

  Point t of the grid writes back rows 256·t … 256·t + 255 of the result. The entry it writes at (p, q) is the gate
  arithmetic over five columns of two split products. Under finite inputs the split collapses — every remainder
  panel is a finite panel minus itself, every block's own remainder a finite block minus itself, so two of the three
  products are sums of zeros — and each column is one gate's affine pre-activation at row 256·t + p, unit q. The 64
  blocks tile the array, so the array is the cell update everywhere.
-/
import proofs.«111548_j48266842472681_2_alg».proof.Proof.IdealFrame
import proofs.«111548_j48266842472681_2_alg».proof.Proof.BodyValue
import proofs.«111548_j48266842472681_2_alg».proof.Proof.HostPrefix
import proofs.«111548_j48266842472681_2_alg».proof.Proof.Collapse
import proofs.«111548_j48266842472681_2_alg».proof.Proof.Spec
import Idealize.ShloMosaic.Lib.Pipeline.Value

set_option maxRecDepth 16384

noncomputable section

namespace Cert.KernelIdeal.Whole

open Cert.KernelIdeal Cert.KernelIdeal.Gen Cert.KernelIdeal.Frame Cert.KernelIdeal.Body Cert.KernelIdeal.Prefix Cert.KernelIdeal.Collapse
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg) (c : Dev nD)

/-! ## Where each window's block sits -/

theorem lt64 (t : Fin cfg0.N) : t.val < 64 := lt_of_lt_of_eq t.isLt N_0

/-- Row `p` of block `t` is row `256·t + p` of the batch. -/
def row (t : Fin cfg0.N) (p : Fin 256) : Fin 16384 := ⟨256 * t.val + p.val, by have := lt64 t; have := p.isLt; omega⟩

/-- The printed index maps, decided over the 64 points: the two batch windows and the result window move one block
    of rows per point; the six weight and bias windows stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The input batch's block at point `t`, entry `(p, k)`. -/
theorem blk0_apply (t : Fin cfg0.N) (p : Fin 256) (k : Fin 1024) :
    iblk m c 0 t (ix2 p k) = V m c main_arg0 (ix2 (row t p) k) := by
  show V m c main_arg0 (((cfg0.win 0).blk t).view.emb (ix2 p k)) = V m c main_arg0 (ix2 (row t p) k)
  refine congrArg (V m c main_arg0) (funext fun a => Fin.ext ?_)
  obtain ⟨e00, e01, -⟩ := idx_facts t
  match a with
  | ⟨0, _⟩ => show win0_0.index t (0 : Fin 2) * 256 + 1 * p.val = 256 * t.val + p.val; omega
  | ⟨1, _⟩ => show win0_0.index t (1 : Fin 2) * 1024 + 1 * k.val = k.val; omega

/-- The hidden batch's block at point `t`, entry `(p, k)`. -/
theorem blk1_apply (t : Fin cfg0.N) (p : Fin 256) (k : Fin 1024) :
    iblk m c 1 t (ix2 p k) = V m c main_arg1 (ix2 (row t p) k) := by
  show V m c main_arg1 (((cfg0.win 1).blk t).view.emb (ix2 p k)) = V m c main_arg1 (ix2 (row t p) k)
  refine congrArg (V m c main_arg1) (funext fun a => Fin.ext ?_)
  obtain ⟨-, -, e10, e11, -⟩ := idx_facts t
  match a with
  | ⟨0, _⟩ => show win0_1.index t (0 : Fin 2) * 256 + 1 * p.val = 256 * t.val + p.val; omega
  | ⟨1, _⟩ => show win0_1.index t (1 : Fin 2) * 1024 + 1 * k.val = k.val; omega

/-! The six weight and bias windows hand the body their whole arrays at every point. -/
theorem blk2_apply (t : Fin cfg0.N) (k : Fin 1024) (cc : Fin 3072) :
    iblk m c 2 t (ix2 k cc) = V m c main_v11 (ix2 k cc) := by
  show V m c main_v11 (((cfg0.win 2).blk t).view.emb (ix2 k cc)) = V m c main_v11 (ix2 k cc)
  refine congrArg (V m c main_v11) (funext fun a => Fin.ext ?_)
  obtain ⟨-, -, -, -, -, -, e0, e1, -⟩ := idx_facts t
  match a with
  | ⟨0, _⟩ => show win0_2.index t (0 : Fin 2) * 1024 + 1 * k.val = k.val; omega
  | ⟨1, _⟩ => show win0_2.index t (1 : Fin 2) * 3072 + 1 * cc.val = cc.val; omega

theorem blk3_apply (t : Fin cfg0.N) (k : Fin 1024) (cc : Fin 3072) :
    iblk m c 3 t (ix2 k cc) = V m c main_v14 (ix2 k cc) := by
  show V m c main_v14 (((cfg0.win 3).blk t).view.emb (ix2 k cc)) = V m c main_v14 (ix2 k cc)
  refine congrArg (V m c main_v14) (funext fun a => Fin.ext ?_)
  obtain ⟨-, -, -, -, -, -, -, -, e0, e1, -⟩ := idx_facts t
  match a with
  | ⟨0, _⟩ => show win0_3.index t (0 : Fin 2) * 1024 + 1 * k.val = k.val; omega
  | ⟨1, _⟩ => show win0_3.index t (1 : Fin 2) * 3072 + 1 * cc.val = cc.val; omega

theorem blk4_apply (t : Fin cfg0.N) (k : Fin 1024) (cc : Fin 2048) :
    iblk m c 4 t (ix2 k cc) = V m c main_v15 (ix2 k cc) := by
  show V m c main_v15 (((cfg0.win 4).blk t).view.emb (ix2 k cc)) = V m c main_v15 (ix2 k cc)
  refine congrArg (V m c main_v15) (funext fun a => Fin.ext ?_)
  obtain ⟨-, -, -, -, -, -, -, -, -, -, e0, e1, -⟩ := idx_facts t
  match a with
  | ⟨0, _⟩ => show win0_4.index t (0 : Fin 2) * 1024 + 1 * k.val = k.val; omega
  | ⟨1, _⟩ => show win0_4.index t (1 : Fin 2) * 2048 + 1 * cc.val = cc.val; omega

theorem blk5_apply (t : Fin cfg0.N) (k : Fin 1024) (cc : Fin 2048) :
    iblk m c 5 t (ix2 k cc) = V m c main_v18 (ix2 k cc) := by
  show V m c main_v18 (((cfg0.win 5).blk t).view.emb (ix2 k cc)) = V m c main_v18 (ix2 k cc)
  refine congrArg (V m c main_v18) (funext fun a => Fin.ext ?_)
  obtain ⟨-, -, -, -, -, -, -, -, -, -, -, -, e0, e1, -⟩ := idx_facts t
  match a with
  | ⟨0, _⟩ => show win0_5.index t (0 : Fin 2) * 1024 + 1 * k.val = k.val; omega
  | ⟨1, _⟩ => show win0_5.index t (1 : Fin 2) * 2048 + 1 * cc.val = cc.val; omega

theorem blk6_apply (t : Fin cfg0.N) (k : Fin 1) (cc : Fin 3072) :
    iblk m c 6 t (ix2 k cc) = V m c main_v8 (ix2 k cc) := by
  show V m c main_v8 (((cfg0.win 6).blk t).view.emb (ix2 k cc)) = V m c main_v8 (ix2 k cc)
  refine congrArg (V m c main_v8) (funext fun a => Fin.ext ?_)
  obtain ⟨-, -, -, -, -, -, -, -, -, -, -, -, -, -, e0, e1, -⟩ := idx_facts t
  match a with
  | ⟨0, _⟩ => show win0_6.index t (0 : Fin 2) * 1 + 1 * k.val = k.val; omega
  | ⟨1, _⟩ => show win0_6.index t (1 : Fin 2) * 3072 + 1 * cc.val = cc.val; omega

theorem blk7_apply (t : Fin cfg0.N) (k : Fin 1) (cc : Fin 2048) :
    iblk m c 7 t (ix2 k cc) = V m c main_v10 (ix2 k cc) := by
  show V m c main_v10 (((cfg0.win 7).blk t).view.emb (ix2 k cc)) = V m c main_v10 (ix2 k cc)
  refine congrArg (V m c main_v10) (funext fun a => Fin.ext ?_)
  obtain ⟨-, -, -, -, -, -, -, -, -, -, -, -, -, -, -, -, e0, e1⟩ := idx_facts t
  match a with
  | ⟨0, _⟩ => show win0_7.index t (0 : Fin 2) * 1 + 1 * k.val = k.val; omega
  | ⟨1, _⟩ => show win0_7.index t (1 : Fin 2) * 2048 + 1 * cc.val = cc.val; omega

/-- Entry `(p, q)` of the result's block at point `t` is entry `(256·t + p, q)` of the result. -/
theorem emb8 (t : Fin cfg0.N) (p : Fin 256) (q : Fin 1024) :
    ((cfg0.win 8).blk t).view.emb (ix2 p q) = ix2 (row t p) q := by
  refine funext fun a => Fin.ext ?_
  obtain ⟨-, -, -, -, e80, e81, -⟩ := idx_facts t
  match a with
  | ⟨0, _⟩ => show win0_8.index t (0 : Fin 2) * 256 + 1 * p.val = 256 * t.val + p.val; omega
  | ⟨1, _⟩ => show win0_8.index t (1 : Fin 2) * 1024 + 1 * q.val = q.val; omega

/-! ## One gate column of each split product, under finite inputs -/

/-- An input-side column: when column `cc` of the three-gate panel is row `q` of the weight matrix `W` and entry `cc` of the
    bias row is entry `q` of the bias `bv`, the split product at `(p, cc)` is that gate's affine pre-activation at row
    `256·t + p`, unit `q` — the input batch and `W` being real. -/
theorem sideI (t : Fin cfg0.N) (p : Fin 256) (cc : Fin 3072) (q : Fin 1024) (W : S1024x1024.Idx → EReal) (bv : S1024.Idx → EReal)
    (hW : ∀ k : Fin 1024, panelI (m ((c : Thread nD τ).loc main_arg2)) (m ((c : Thread nD τ).loc main_arg6)) (m ((c : Thread nD τ).loc main_arg10)) (ix2 k cc) = W (ix2 q k))
    (hb : biasI (m ((c : Thread nD τ).loc main_arg3)) (m ((c : Thread nD τ).loc main_arg7)) (m ((c : Thread nD τ).loc main_arg11)) (ix2 (0 : Fin 1) cc) = bv (ix1 q))
    (h0 : ∀ i, ∃ r : ℝ, (m ((c : Thread nD τ).loc main_arg0)) i = (r : EReal)) (hWr : ∀ i, ∃ r : ℝ, W i = (r : EReal)) :
    splitLin (iblk m c 0 t) (iblk m c 2 t) (iblk m c 3 t) (iblk m c 6 t) p cc = Cert.Gru.lin (m ((c : Thread nD τ).loc main_arg0)) W bv (row t p) q := by
  have hx : ∀ k : Fin 1024, ∃ r : ℝ, iblk m c 0 t (ix2 p k) = (r : EReal) := fun k => by
    rw [blk0_apply, entry_main_arg0]; exact h0 _
  have hl : ∀ k : Fin 1024, iblk m c 3 t (ix2 k cc) = (0 : EReal) := fun k => by
    rw [blk3_apply, entry_v14]; beta_reduce; rw [hW k]; exact sub_self_of_real (hWr _)
  rw [splitLin_collapse _ _ _ _ p cc hx hl]
  unfold dotAt Cert.Gru.lin
  rw [blk6_apply, entry_v8, hb]
  refine congrArg (· + bv (ix1 q)) (Finset.sum_congr rfl fun k _ => ?_)
  rw [blk0_apply, entry_main_arg0, blk2_apply, entry_v11, hW k]

/-- A hidden-side column, likewise. -/
theorem sideH (t : Fin cfg0.N) (p : Fin 256) (cc : Fin 2048) (q : Fin 1024) (W : S1024x1024.Idx → EReal) (bv : S1024.Idx → EReal)
    (hW : ∀ k : Fin 1024, panelH (m ((c : Thread nD τ).loc main_arg4)) (m ((c : Thread nD τ).loc main_arg12)) (ix2 k cc) = W (ix2 q k))
    (hb : biasH (m ((c : Thread nD τ).loc main_arg5)) (m ((c : Thread nD τ).loc main_arg13)) (ix2 (0 : Fin 1) cc) = bv (ix1 q))
    (h1 : ∀ i, ∃ r : ℝ, (m ((c : Thread nD τ).loc main_arg1)) i = (r : EReal)) (hWr : ∀ i, ∃ r : ℝ, W i = (r : EReal)) :
    splitLin (iblk m c 1 t) (iblk m c 4 t) (iblk m c 5 t) (iblk m c 7 t) p cc = Cert.Gru.lin (m ((c : Thread nD τ).loc main_arg1)) W bv (row t p) q := by
  have hx : ∀ k : Fin 1024, ∃ r : ℝ, iblk m c 1 t (ix2 p k) = (r : EReal) := fun k => by
    rw [blk1_apply, entry_main_arg1]; exact h1 _
  have hl : ∀ k : Fin 1024, iblk m c 5 t (ix2 k cc) = (0 : EReal) := fun k => by
    rw [blk5_apply, entry_v18]; beta_reduce; rw [hW k]; exact sub_self_of_real (hWr _)
  rw [splitLin_collapse _ _ _ _ p cc hx hl]
  unfold dotAt Cert.Gru.lin
  rw [blk7_apply, entry_v10, hb]
  refine congrArg (· + bv (ix1 q)) (Finset.sum_congr rfl fun k _ => ?_)
  rw [blk1_apply, entry_main_arg1, blk4_apply, entry_v15, hW k]

/-! ## What each point writes back -/

/-- The seven arrays whose entries the collapse needs real: the two batches and the five weight matrices. -/
def RealInputs : Prop :=
  (∀ i, ∃ r : ℝ, (m ((c : Thread nD τ).loc main_arg0)) i = (r : EReal)) ∧ (∀ i, ∃ r : ℝ, (m ((c : Thread nD τ).loc main_arg1)) i = (r : EReal)) ∧ (∀ i, ∃ r : ℝ, (m ((c : Thread nD τ).loc main_arg2)) i = (r : EReal))
  ∧ (∀ i, ∃ r : ℝ, (m ((c : Thread nD τ).loc main_arg4)) i = (r : EReal)) ∧ (∀ i, ∃ r : ℝ, (m ((c : Thread nD τ).loc main_arg6)) i = (r : EReal)) ∧ (∀ i, ∃ r : ℝ, (m ((c : Thread nD τ).loc main_arg10)) i = (r : EReal))
  ∧ (∀ i, ∃ r : ℝ, (m ((c : Thread nD τ).loc main_arg12)) i = (r : EReal))

theorem hz : (![0, 0] : Fin 2 → Nat) = fun _ => 0 := funext fun a => by fin_cases a <;> rfl

/-- The specification's cell update of the fourteen arguments as launched. -/
abbrev spec : S16384x1024.Idx → EReal := Cert.Gru.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13))

/-- Point `t` writes back block `t` of the cell update. -/
theorem flushed_eq (hfin : RealInputs m c) (t : Fin cfg0.N) :
    (dats m 0 c).flushed 8 t = ((cfg0.win 8).blk t).view.read (Elt Ideal) (spec m c) := by
  obtain ⟨h0, h1, h2, h4, h6, h10, h12⟩ := hfin
  show (cfg0.win 8).cut (grid0.coords t) ((dats m 0 c).after 8 t) = _
  rw [after_8]
  unfold outBlock
  rw [View.canon_unit_zero hz]
  simp only [View.ld_unit_zero (S := S256x1024) hz, View.ld_unit_zero (S := S1024x3072) hz, View.ld_unit_zero (S := S1024x2048) hz,
    View.ld_unit_zero (S := S1x3072) hz, View.ld_unit_zero (S := S1x2048) hz]
  funext (j : S256x1024.Idx)
  obtain ⟨p, q, rfl⟩ : ∃ (p : Fin 256) (q : Fin 1024), j = ix2 p q := ⟨j 0, j 1, eq_ix2 j⟩
  show k0_pay1 (iblk m c 1 t) (k0_pay2 (iblk m c 0 t) (iblk m c 2 t) (iblk m c 3 t) (iblk m c 6 t))
      (k0_pay3 (iblk m c 1 t) (iblk m c 4 t) (iblk m c 5 t) (iblk m c 7 t)) (k0_pay4 (iblk m c 0 t) (iblk m c 2 t) (iblk m c 3 t) (iblk m c 6 t)) (ix2 p q)
    = spec m c (((cfg0.win 8).blk t).view.emb (ix2 p q))
  rw [emb8 t p q]
  refine (stored_apply (iblk m c 0 t) (iblk m c 1 t) (iblk m c 2 t) (iblk m c 3 t) (iblk m c 4 t) (iblk m c 5 t) (iblk m c 6 t) (iblk m c 7 t) p q).trans ?_
  rw [gates_eq,
    sideI m c t p (colR q) q _ _ (fun k => panelI_R _ _ _ k q) (biasI_R _ _ _ q) h0 h2,
    sideI m c t p (colZ q) q _ _ (fun k => panelI_Z _ _ _ k q) (biasI_Z _ _ _ q) h0 h6,
    sideI m c t p (colN q) q _ _ (fun k => panelI_N _ _ _ k q) (biasI_N _ _ _ q) h0 h10,
    sideH m c t p (colHr q) q _ _ (fun k => panelH_R _ _ k q) (biasH_R _ _ q) h1 h4,
    sideH m c t p (colHn q) q _ _ (fun k => panelH_N _ _ k q) (biasH_N _ _ q) h1 h12,
    blk1_apply, entry_main_arg1]
  rfl

/-! ## The blocks tile the array -/

/-- An index of the result is in point `t`'s block iff each coordinate is in the block's range on its axis. -/
theorem mem_blk8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v19).slice (win0_8.rect t)).set ↔ _
  rw [View.set_slice_whole, Rect.mem_set_unit]
  exact Iff.rfl

/-- Row `r` of the result lies in the block of point `r / 256`. -/
theorem cover (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 64 := N_0
  let t : Fin cfg0.N := ⟨(i 0).val / 256, by rw [hN]; omega⟩
  refine ⟨t, flush0_8 t, ?_⟩
  rw [mem_blk8]
  obtain ⟨-, -, -, -, e80, e81, -⟩ := idx_facts t
  have ht : t.val = (i 0).val / 256 := rfl
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- THE RESULT ARRAY after the run is the cell update of the arguments. -/
theorem final (hfin : RealInputs m c) : (dats m 0 c).arrAt 8 cfg0.N = spec m c :=
  (dats m 0 c).arrAt_eq_of_cover 8 (spec m c) (fun t _ => flushed_eq m c hfin t) (cover)

/-! ## The run, read -/

/-- Under finite inputs every weakly fair execution of @main ends with the result (both of the two results are the one
    array) at the cell update of the arguments, and the arguments as launched. -/
theorem run (hfin : ∀ c, RealInputs m c) : θ_run defs (onTc (τ := τ) (main (F := Ideal))) ⟨m, fun _ => 0, ρ⟩ fun r => ∀ c : Dev nD,
      r.2.mem ((c.tc : Thread nD τ).loc main_v19) = spec m c
      ∧ r.2.mem ((c.tc : Thread nD τ).loc main_v19) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 8).trans (final m c (hfin c)), ((h c).1 8).trans (final m c (hfin c)),
      args_kept m (dats m) (A_eq m) r h c⟩)
    (run_main m ρ)

end Cert.KernelIdeal.Whole

end
-- ==== Proof.RefValue.lean ====
/-
  The reference program's result, read index by index on the extended reals, is the GRU cell update of the specification.

  Each of the five affine pre-activations the reference computes — a `dot_general` of the activations against a
  transposed weight matrix, plus the bias broadcast along the rows — is, at row `r` and unit `j`,
  `Σ_k x[r, k] · W[j, k] + b[j]`: the transpose swaps the weight's two coordinates, so the contraction index `k` runs
  along a ROW of `W`, and the two broadcasts read the bias at the column `j` alone. The rest of the program is
  pointwise: two logistic gates written out as `1 / (1 + e^(−v))`, a hyperbolic tangent, and the convex mixture.
-/
import proofs.«111548_j48266842472681_2_alg».proof.Proof.Gen.ReferenceIdeal.Run
import proofs.«111548_j48266842472681_2_alg».proof.Proof.Gen.ReferenceIdeal.Read
import proofs.«111548_j48266842472681_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

/-- The type of an activation array (16384 × 1024) at the ideal instance. -/
abbrev ActsT : Type := (⟨S16384x1024, .f32⟩ : BufTy).Contents (Elt Ideal)
/-- The type of a weight matrix (1024 × 1024) at the ideal instance. -/
abbrev WtsT : Type := (⟨S1024x1024, .f32⟩ : BufTy).Contents (Elt Ideal)
/-- The type of a bias vector (1024) at the ideal instance. -/
abbrev BiasT : Type := (⟨S1024, .f32⟩ : BufTy).Contents (Elt Ideal)

/-- The hidden projection shared by the reset and update gates, `h · W_rhᵀ + b_rh`, at an index: the row of `h` against the row of `W_rh`, plus the bias at that unit. -/
theorem lin_rh (x1 : ActsT) (x4 : WtsT) (x5 : BiasT) (i : S16384x1024.Idx) :
    val_main_v4 (F := Ideal) x1 x4 x5 i = Cert.Gru.lin x1 x4 x5 (i 0) (i 1) := by
  -- the left operand is read at (row, k); the transposed weight at (k, unit), that is, the weight at (unit, k)
  have hl : ∀ k : Fin 1024, lidx_main_v1 i k = ix2 (i 0) k := fun k =>
    funext fun a => Fin.ext (by match a with | ⟨0, _⟩ => rfl | ⟨1, _⟩ => rfl)
  have hr : ∀ k : Fin 1024, idx_main_v0 (ridx_main_v1 i k) = ix2 (i 1) k := fun k =>
    funext fun a => Fin.ext (by match a with | ⟨0, _⟩ => rfl | ⟨1, _⟩ => rfl)
  -- the two broadcasts of the bias read it at the unit
  have hb : idx_main_v2 (idx_main_v3 i) = ix1 (i 1) :=
    funext fun a => Fin.ext (by match a with | ⟨0, _⟩ => rfl)
  rw [val_main_v4_apply, val_main_v1_apply, val_main_v3_apply, val_main_v2_apply]
  simp only [val_main_v0_apply, hl, hr, hb, Cert.Gru.lin, Ideal.addf_def]
  rfl

/-- The input projection of the reset gate, `x · W_riᵀ + b_ri`, at an index: the row of `x` against the row of `W_ri`, plus the bias at that unit. -/
theorem lin_ri (x0 : ActsT) (x2 : WtsT) (x3 : BiasT) (i : S16384x1024.Idx) :
    val_main_v9 (F := Ideal) x0 x2 x3 i = Cert.Gru.lin x0 x2 x3 (i 0) (i 1) := by
  -- the left operand is read at (row, k); the transposed weight at (k, unit), that is, the weight at (unit, k)
  have hl : ∀ k : Fin 1024, lidx_main_v6 i k = ix2 (i 0) k := fun k =>
    funext fun a => Fin.ext (by match a with | ⟨0, _⟩ => rfl | ⟨1, _⟩ => rfl)
  have hr : ∀ k : Fin 1024, idx_main_v5 (ridx_main_v6 i k) = ix2 (i 1) k := fun k =>
    funext fun a => Fin.ext (by match a with | ⟨0, _⟩ => rfl | ⟨1, _⟩ => rfl)
  -- the two broadcasts of the bias read it at the unit
  have hb : idx_main_v7 (idx_main_v8 i) = ix1 (i 1) :=
    funext fun a => Fin.ext (by match a with | ⟨0, _⟩ => rfl)
  rw [val_main_v9_apply, val_main_v6_apply, val_main_v8_apply, val_main_v7_apply]
  simp only [val_main_v5_apply, hl, hr, hb, Cert.Gru.lin, Ideal.addf_def]
  rfl

/-- The input projection of the update gate, `x · W_ziᵀ + b_zi`, at an index: the row of `x` against the row of `W_zi`, plus the bias at that unit. -/
theorem lin_zi (x0 : ActsT) (x6 : WtsT) (x7 : BiasT) (i : S16384x1024.Idx) :
    val_main_v21 (F := Ideal) x0 x6 x7 i = Cert.Gru.lin x0 x6 x7 (i 0) (i 1) := by
  -- the left operand is read at (row, k); the transposed weight at (k, unit), that is, the weight at (unit, k)
  have hl : ∀ k : Fin 1024, lidx_main_v18 i k = ix2 (i 0) k := fun k =>
    funext fun a => Fin.ext (by match a with | ⟨0, _⟩ => rfl | ⟨1, _⟩ => rfl)
  have hr : ∀ k : Fin 1024, idx_main_v17 (ridx_main_v18 i k) = ix2 (i 1) k := fun k =>
    funext fun a => Fin.ext (by match a with | ⟨0, _⟩ => rfl | ⟨1, _⟩ => rfl)
  -- the two broadcasts of the bias read it at the unit
  have hb : idx_main_v19 (idx_main_v20 i) = ix1 (i 1) :=
    funext fun a => Fin.ext (by match a with | ⟨0, _⟩ => rfl)
  rw [val_main_v21_apply, val_main_v18_apply, val_main_v20_apply, val_main_v19_apply]
  simp only [val_main_v17_apply, hl, hr, hb, Cert.Gru.lin, Ideal.addf_def]
  rfl

/-- The input projection of the candidate state, `x · W_niᵀ + b_ni`, at an index: the row of `x` against the row of `W_ni`, plus the bias at that unit. -/
theorem lin_ni (x0 : ActsT) (x10 : WtsT) (x11 : BiasT) (i : S16384x1024.Idx) :
    val_main_v33 (F := Ideal) x0 x10 x11 i = Cert.Gru.lin x0 x10 x11 (i 0) (i 1) := by
  -- the left operand is read at (row, k); the transposed weight at (k, unit), that is, the weight at (unit, k)
  have hl : ∀ k : Fin 1024, lidx_main_v30 i k = ix2 (i 0) k := fun k =>
    funext fun a => Fin.ext (by match a with | ⟨0, _⟩ => rfl | ⟨1, _⟩ => rfl)
  have hr : ∀ k : Fin 1024, idx_main_v29 (ridx_main_v30 i k) = ix2 (i 1) k := fun k =>
    funext fun a => Fin.ext (by match a with | ⟨0, _⟩ => rfl | ⟨1, _⟩ => rfl)
  -- the two broadcasts of the bias read it at the unit
  have hb : idx_main_v31 (idx_main_v32 i) = ix1 (i 1) :=
    funext fun a => Fin.ext (by match a with | ⟨0, _⟩ => rfl)
  rw [val_main_v33_apply, val_main_v30_apply, val_main_v32_apply, val_main_v31_apply]
  simp only [val_main_v29_apply, hl, hr, hb, Cert.Gru.lin, Ideal.addf_def]
  rfl

/-- The hidden projection of the candidate state, `h · W_nhᵀ + b_nh`, at an index: the row of `h` against the row of `W_nh`, plus the bias at that unit. -/
theorem lin_nh (x1 : ActsT) (x12 : WtsT) (x13 : BiasT) (i : S16384x1024.Idx) :
    val_main_v38 (F := Ideal) x1 x12 x13 i = Cert.Gru.lin x1 x12 x13 (i 0) (i 1) := by
  -- the left operand is read at (row, k); the transposed weight at (k, unit), that is, the weight at (unit, k)
  have hl : ∀ k : Fin 1024, lidx_main_v35 i k = ix2 (i 0) k := fun k =>
    funext fun a => Fin.ext (by match a with | ⟨0, _⟩ => rfl | ⟨1, _⟩ => rfl)
  have hr : ∀ k : Fin 1024, idx_main_v34 (ridx_main_v35 i k) = ix2 (i 1) k := fun k =>
    funext fun a => Fin.ext (by match a with | ⟨0, _⟩ => rfl | ⟨1, _⟩ => rfl)
  -- the two broadcasts of the bias read it at the unit
  have hb : idx_main_v36 (idx_main_v37 i) = ix1 (i 1) :=
    funext fun a => Fin.ext (by match a with | ⟨0, _⟩ => rfl)
  rw [val_main_v38_apply, val_main_v35_apply, val_main_v37_apply, val_main_v36_apply]
  simp only [val_main_v34_apply, hl, hr, hb, Cert.Gru.lin, Ideal.addf_def]
  rfl

/-- The reference's result array IS the GRU cell update of its arguments: at every index, with `σ v = 1 / (1 + e^(−v))`,
    `(1 − z) · tanh (x·W_niᵀ + b_ni + r · (h·W_nhᵀ + b_nh)) + z · h` where `r = σ (x·W_riᵀ + b_ri + h·W_rhᵀ + b_rh)` and
    `z = σ (x·W_ziᵀ + b_zi + h·W_rhᵀ + b_rh)`. The five affine maps are the lemmas above; everything else is pointwise,
    and the float word of the number one is left as it stands on both sides. -/
theorem ref_is_cell (x0 x1 : (⟨Cert.ReferenceIdeal.S16384x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal)) (x10 : (⟨Cert.ReferenceIdeal.S1024x1024, .f32⟩ : BufTy).Contents (Elt Ideal)) (x11 : (⟨Cert.ReferenceIdeal.S1024, .f32⟩ : BufTy).Contents (Elt Ideal)) (x12 : (⟨Cert.ReferenceIdeal.S1024x1024, .f32⟩ : BufTy).Contents (Elt Ideal)) (x13 : (⟨Cert.ReferenceIdeal.S1024, .f32⟩ : BufTy).Contents (Elt Ideal)) :
    Cert.ReferenceIdeal.Read.val_main_v46 (F := Ideal) x0 x1 x2 x3 x4 x5 x6 x7 x10 x11 x12 x13
      = Cert.Gru.cell x0 x1 x2 x3 x4 x5 x6 x7 x10 x11 x12 x13 := by
  funext i
  simp only [val_main_v46_apply, val_main_v45_apply, val_main_v44_apply, val_main_v43_apply, val_main_v42_apply,
    val_main_v41_apply, val_main_v40_apply, val_main_v39_apply, val_main_v28_apply, val_main_v27_apply,
    val_main_v26_apply, val_main_v25_apply, val_main_v24_apply, val_main_v23_apply, val_main_v22_apply,
    val_main_v16_apply, val_main_v15_apply, val_main_v14_apply, val_main_v13_apply, val_main_v12_apply,
    val_main_v11_apply, val_main_v10_apply, val_main_cst_apply, val_main_cst_0_apply, val_main_cst_1_apply,
    val_main_cst_2_apply, val_main_cst_3_apply, lin_rh, lin_ri, lin_zi, lin_ni, lin_nh]
  simp only [Cert.Gru.cell, Cert.Gru.sigm, Ideal.addf_def, Ideal.subf_def, Ideal.mulf_def, Ideal.hostDivf_def,
    Ideal.hostNegf_def, Ideal.negf_def, Ideal.hostUnary_exp_def, Ideal.hostUnary_tanh_def, Ideal.ofBits_def]

section RunTerm

variable {F : FTy → Type} [FloatOps F]

/-- The composed term the reference's run states for its result, as a function of the twelve arguments it reads: the
    same operations as the named stages, written in one piece. -/
abbrev runTerm (x0 x1 : (⟨Cert.ReferenceIdeal.S16384x1024, .f32⟩ : BufTy).Contents (Elt F)) (x2 : (⟨Cert.ReferenceIdeal.S1024x1024, .f32⟩ : BufTy).Contents (Elt F)) (x3 : (⟨Cert.ReferenceIdeal.S1024, .f32⟩ : BufTy).Contents (Elt F)) (x4 : (⟨Cert.ReferenceIdeal.S1024x1024, .f32⟩ : BufTy).Contents (Elt F)) (x5 : (⟨Cert.ReferenceIdeal.S1024, .f32⟩ : BufTy).Contents (Elt F)) (x6 : (⟨Cert.ReferenceIdeal.S1024x1024, .f32⟩ : BufTy).Contents (Elt F)) (x7 : (⟨Cert.ReferenceIdeal.S1024, .f32⟩ : BufTy).Contents (Elt F)) (x10 : (⟨Cert.ReferenceIdeal.S1024x1024, .f32⟩ : BufTy).Contents (Elt F)) (x11 : (⟨Cert.ReferenceIdeal.S1024, .f32⟩ : BufTy).Contents (Elt F)) (x12 : (⟨Cert.ReferenceIdeal.S1024x1024, .f32⟩ : BufTy).Contents (Elt F)) (x13 : (⟨Cert.ReferenceIdeal.S1024, .f32⟩ : BufTy).Contents (Elt F)) :
    (⟨Cert.ReferenceIdeal.S16384x1024, .f32⟩ : BufTy).Contents (Elt F) :=
  addf (mulf (subf (broadcastInDim S16384x1024 ![] bcast_S_S16384x1024 (constant (F := F) S_ .f32 0x3F800000#32)) (Host.divf (broadcastInDim S16384x1024 ![] bcast_S_S16384x1024 (constant (F := F) S_ .f32 0x3F800000#32)) (addf (broadcastInDim S16384x1024 ![] bcast_S_S16384x1024 (constant (F := F) S_ .f32 0x3F800000#32)) (Host.exp (Host.negf (addf (addf (Host.dotGeneral dot_S16384x1024_S1024x1024_S16384x1024_1_0_0_1_n_n none (x0) (transpose S1024x1024 [1, 0] (x6) transposes_S1024x1024_S1024x1024_1_0)) (broadcastInDim S16384x1024 ![0, 1] bcast_S1x1024_S16384x1024_0_1 (broadcastInDim S1x1024 ![1] bcast_S1024_S1x1024_1 (x7)))) (addf (Host.dotGeneral dot_S16384x1024_S1024x1024_S16384x1024_1_0_0_1_n_n none (x1) (transpose S1024x1024 [1, 0] (x4) transposes_S1024x1024_S1024x1024_1_0)) (broadcastInDim S16384x1024 ![0, 1] bcast_S1x1024_S16384x1024_0_1 (broadcastInDim S1x1024 ![1] bcast_S1024_S1x1024_1 (x5)))))))))) (Host.tanh (addf (addf (Host.dotGeneral dot_S16384x1024_S1024x1024_S16384x1024_1_0_0_1_n_n none (x0) (transpose S1024x1024 [1, 0] (x10) transposes_S1024x1024_S1024x1024_1_0)) (broadcastInDim S16384x1024 ![0, 1] bcast_S1x1024_S16384x1024_0_1 (broadcastInDim S1x1024 ![1] bcast_S1024_S1x1024_1 (x11)))) (mulf (Host.divf (broadcastInDim S16384x1024 ![] bcast_S_S16384x1024 (constant (F := F) S_ .f32 0x3F800000#32)) (addf (broadcastInDim S16384x1024 ![] bcast_S_S16384x1024 (constant (F := F) S_ .f32 0x3F800000#32)) (Host.exp (Host.negf (addf (addf (Host.dotGeneral dot_S16384x1024_S1024x1024_S16384x1024_1_0_0_1_n_n none (x0) (transpose S1024x1024 [1, 0] (x2) transposes_S1024x1024_S1024x1024_1_0)) (broadcastInDim S16384x1024 ![0, 1] bcast_S1x1024_S16384x1024_0_1 (broadcastInDim S1x1024 ![1] bcast_S1024_S1x1024_1 (x3)))) (addf (Host.dotGeneral dot_S16384x1024_S1024x1024_S16384x1024_1_0_0_1_n_n none (x1) (transpose S1024x1024 [1, 0] (x4) transposes_S1024x1024_S1024x1024_1_0)) (broadcastInDim S16384x1024 ![0, 1] bcast_S1x1024_S16384x1024_0_1 (broadcastInDim S1x1024 ![1] bcast_S1024_S1x1024_1 (x5))))))))) (addf (Host.dotGeneral dot_S16384x1024_S1024x1024_S16384x1024_1_0_0_1_n_n none (x1) (transpose S1024x1024 [1, 0] (x12) transposes_S1024x1024_S1024x1024_1_0)) (broadcastInDim S16384x1024 ![0, 1] bcast_S1x1024_S16384x1024_0_1 (broadcastInDim S1x1024 ![1] bcast_S1024_S1x1024_1 (x13)))))))) (mulf (Host.divf (broadcastInDim S16384x1024 ![] bcast_S_S16384x1024 (constant (F := F) S_ .f32 0x3F800000#32)) (addf (broadcastInDim S16384x1024 ![] bcast_S_S16384x1024 (constant (F := F) S_ .f32 0x3F800000#32)) (Host.exp (Host.negf (addf (addf (Host.dotGeneral dot_S16384x1024_S1024x1024_S16384x1024_1_0_0_1_n_n none (x0) (transpose S1024x1024 [1, 0] (x6) transposes_S1024x1024_S1024x1024_1_0)) (broadcastInDim S16384x1024 ![0, 1] bcast_S1x1024_S16384x1024_0_1 (broadcastInDim S1x1024 ![1] bcast_S1024_S1x1024_1 (x7)))) (addf (Host.dotGeneral dot_S16384x1024_S1024x1024_S16384x1024_1_0_0_1_n_n none (x1) (transpose S1024x1024 [1, 0] (x4) transposes_S1024x1024_S1024x1024_1_0)) (broadcastInDim S16384x1024 ![0, 1] bcast_S1x1024_S16384x1024_0_1 (broadcastInDim S1x1024 ![1] bcast_S1024_S1x1024_1 (x5))))))))) (x1))

end RunTerm

/-- The run's composed term is the last stage by definition, so it too is the cell update of the argument arrays. -/
theorem ref_term_is_cell (x0 x1 : (⟨Cert.ReferenceIdeal.S16384x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal)) (x10 : (⟨Cert.ReferenceIdeal.S1024x1024, .f32⟩ : BufTy).Contents (Elt Ideal)) (x11 : (⟨Cert.ReferenceIdeal.S1024, .f32⟩ : BufTy).Contents (Elt Ideal)) (x12 : (⟨Cert.ReferenceIdeal.S1024x1024, .f32⟩ : BufTy).Contents (Elt Ideal)) (x13 : (⟨Cert.ReferenceIdeal.S1024, .f32⟩ : BufTy).Contents (Elt Ideal)) :
    runTerm (F := Ideal) x0 x1 x2 x3 x4 x5 x6 x7 x10 x11 x12 x13 = Cert.Gru.cell x0 x1 x2 x3 x4 x5 x6 x7 x10 x11 x12 x13 :=
  (Cert.ReferenceIdeal.Read.val_main_v46_eq (F := Ideal) x0 x1 x2 x3 x4 x5 x6 x7 x10 x11 x12 x13).trans (ref_is_cell x0 x1 x2 x3 x4 x5 x6 x7 x10 x11 x12 x13)

/-- The same at the arrays a memory holds for the arguments on a device: the term the reference's run ends at is the
    cell update of the argument arrays found in that memory. -/
theorem ref_post_is_cell (m : (ℓ : Loc nD τ sig) → Buf (Elt Ideal) ℓ) (c : Dev nD) :
    runTerm (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg10)) (m ((c.tc : Thread nD τ).loc main_arg11))
        (m ((c.tc : Thread nD τ).loc main_arg12)) (m ((c.tc : Thread nD τ).loc main_arg13))
      = Cert.Gru.cell (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg10)) (m ((c.tc : Thread nD τ).loc main_arg11))
        (m ((c.tc : Thread nD τ).loc main_arg12)) (m ((c.tc : Thread nD τ).loc main_arg13)) :=
  ref_term_is_cell _ _ _ _ _ _ _ _ _ _ _ _

/-- The reference's run with its result named by the specification: from any memory with zero counters, every weakly
    fair execution of the reference terminates with both of its results (one array, returned twice) at the cell
    update of the argument arrays it started from, and with the fourteen argument arrays unchanged. -/
theorem ref_run_cell (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46)
        = Cert.Gru.cell (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg10)) (m ((c.tc : Thread nD τ).loc main_arg11))
          (m ((c.tc : Thread nD τ).loc main_arg12)) (m ((c.tc : Thread nD τ).loc main_arg13))
      ∧ r.2.mem ((c.tc : Thread nD τ).loc main_v46)
        = Cert.Gru.cell (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg10)) (m ((c.tc : Thread nD τ).loc main_arg11))
          (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono
    (fun _ h c => ⟨(h c).1.trans (ref_post_is_cell m c), (h c).2.1.trans (ref_post_is_cell m c), (h c).2.2⟩)
    (Cert.ReferenceIdeal.Value.run (F := Ideal) m ρ)

end Cert.ReferenceIdeal.RefValue

end
-- ==== Proof.Finite.lean ====
/-
  Finiteness of the inputs, read back from the printed precondition.

  The precondition is one bit: the conjunction, over the fourteen argument arrays, of "every entry `x` has
  `|x| < +∞`", each "every" written as a reduction by `and` from the constant 1 and the bound written as the float
  word `0x7F800000`, which denotes `+∞`. On the extended reals `|x| = max x (−x)`, and `max x (−x) < +∞` leaves out
  exactly the two infinities, so when the bit is 1 every entry of every array is a real number. The statements below
  give that for the two activation arrays and the five weight matrices that enter a matrix product.
-/
import proofs.«111548_j48266842472681_2_alg».proof.Defs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Gru.Finite

open Idealize.ShloMosaic Idealize.ShloMosaic.ValueIdx Cert.Pre_finite_inputs

/-- The scalar shape has one index. -/
instance subsingleton_scalarIdx : Subsingleton S_.Idx := ⟨fun a b => funext fun d => d.elim0⟩

/-- The float word `0x7F800000` denotes `+∞`. -/
theorem inf_word : Ideal.ofBits .f32 0x7F800000#32 = (⊤ : EReal) := by simp [Ideal.ofBits, Ideal.ieee]

/-- One entry: an extended real whose absolute value `max x (−x)` compares below the value of `0x7F800000` is neither
    infinity, hence a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  rw [max_lt_iff] at hlt
  induction x using EReal.rec with
  | bot => exact absurd hlt.2 (by simp)
  | coe r => exact ⟨r, rfl⟩
  | top => exact absurd hlt.1 (by simp)

/-- One array of any shape: if the reduction by `and`, from 1, of the entrywise test `|a i| < +∞` is 1, then every entry
    of the array is a real number. -/
theorem all_real {s : Shape} {axes : List (Fin s.rank)} (hb : S_.BroadcastsInDim s (![] : Fin 0 → Fin s.rank))
    (hr : s.ReducesTo axes S_) (hS : 0 < S_.numel) (a : FVec Ideal s .f32)
    (e : Host.reduce IntOp.andi
          (cmpf .olt (Host.absf a) (broadcastInDim s ![] hb (constant (F := Ideal) S_ .f32 0x7F800000#32)))
          (constantI S_ 1 1#1) hr hS ix0 = 1#1) :
    ∀ i : s.Idx, ∃ r : ℝ, a i = (r : EReal) := by
  intro i
  have hi := Host.reduce_andi_all _ _ hr hS ix0 e i
  rw [cmpf_apply, broadcastInDim_apply _ hb _ i ix0 (fun d => d.elim0), constant_apply] at hi
  exact real_of_abs_lt_inf (a i) hi

variable [Cert.Pre_finite_inputs.Facts]

/-- The whole precondition: when the printed `finite_inputs` of fourteen argument arrays is the bit 1, every entry of every
    one of the fourteen arrays is a real number. The bit is a left-nested conjunction of fourteen "all entries finite" bits,
    one per array in argument order; each is read back by `all_real`. -/
theorem all_inputs_real (a0 : FVec Ideal S16384x1024 .f32) (a1 : FVec Ideal S16384x1024 .f32) (a2 : FVec Ideal S1024x1024 .f32) (a3 : FVec Ideal S1024 .f32) (a4 : FVec Ideal S1024x1024 .f32) (a5 : FVec Ideal S1024 .f32) (a6 : FVec Ideal S1024x1024 .f32) (a7 : FVec Ideal S1024 .f32) (a8 : FVec Ideal S1024x1024 .f32) (a9 : FVec Ideal S1024 .f32) (a10 : FVec Ideal S1024x1024 .f32) (a11 : FVec Ideal S1024 .f32) (a12 : FVec Ideal S1024x1024 .f32) (a13 : FVec Ideal S1024 .f32)
    (h : Cert.Pre_finite_inputs.fn (F := Ideal) a0 a1 a2 a3 a4 a5 a6 a7 a8 a9 a10 a11 a12 a13 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal)) := by
  have h0 := congrFun h ix0
  dsimp only [fn, fn_part1, fn_part2, fn_part3, fn_part4] at h0
  simp only [Idealize.ShloMosaic.andi, IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨all_real Facts.bcast_S_S16384x1024 Facts.reducesTo_S16384x1024_S_d0_1 Facts.h_S_ a0 e0,
    all_real Facts.bcast_S_S16384x1024 Facts.reducesTo_S16384x1024_S_d0_1 Facts.h_S_ a1 e1,
    all_real Facts.bcast_S_S1024x1024 Facts.reducesTo_S1024x1024_S_d0_1 Facts.h_S_ a2 e2,
    all_real Facts.bcast_S_S1024 Facts.reducesTo_S1024_S_d0 Facts.h_S_ a3 e3,
    all_real Facts.bcast_S_S1024x1024 Facts.reducesTo_S1024x1024_S_d0_1 Facts.h_S_ a4 e4,
    all_real Facts.bcast_S_S1024 Facts.reducesTo_S1024_S_d0 Facts.h_S_ a5 e5,
    all_real Facts.bcast_S_S1024x1024 Facts.reducesTo_S1024x1024_S_d0_1 Facts.h_S_ a6 e6,
    all_real Facts.bcast_S_S1024 Facts.reducesTo_S1024_S_d0 Facts.h_S_ a7 e7,
    all_real Facts.bcast_S_S1024x1024 Facts.reducesTo_S1024x1024_S_d0_1 Facts.h_S_ a8 e8,
    all_real Facts.bcast_S_S1024 Facts.reducesTo_S1024_S_d0 Facts.h_S_ a9 e9,
    all_real Facts.bcast_S_S1024x1024 Facts.reducesTo_S1024x1024_S_d0_1 Facts.h_S_ a10 e10,
    all_real Facts.bcast_S_S1024 Facts.reducesTo_S1024_S_d0 Facts.h_S_ a11 e11,
    all_real Facts.bcast_S_S1024x1024 Facts.reducesTo_S1024x1024_S_d0_1 Facts.h_S_ a12 e12,
    all_real Facts.bcast_S_S1024 Facts.reducesTo_S1024_S_d0 Facts.h_S_ a13 e13⟩

/-- What the matrix products need: under the precondition, every entry of the two activation arrays (arguments 0 and 1) and
    of the five weight matrices that are multiplied (arguments 2, 4, 6, 10 and 12) is a real number. -/
theorem inputs_real (a0 : FVec Ideal S16384x1024 .f32) (a1 : FVec Ideal S16384x1024 .f32) (a2 : FVec Ideal S1024x1024 .f32) (a3 : FVec Ideal S1024 .f32) (a4 : FVec Ideal S1024x1024 .f32) (a5 : FVec Ideal S1024 .f32) (a6 : FVec Ideal S1024x1024 .f32) (a7 : FVec Ideal S1024 .f32) (a8 : FVec Ideal S1024x1024 .f32) (a9 : FVec Ideal S1024 .f32) (a10 : FVec Ideal S1024x1024 .f32) (a11 : FVec Ideal S1024 .f32) (a12 : FVec Ideal S1024x1024 .f32) (a13 : FVec Ideal S1024 .f32)
    (h : Cert.Pre_finite_inputs.fn (F := Ideal) a0 a1 a2 a3 a4 a5 a6 a7 a8 a9 a10 a11 a12 a13 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a4 i = (r : EReal))
      ∧ (∀ i, ∃ r : ℝ, a6 i = (r : EReal))
      ∧ (∀ i, ∃ r : ℝ, a10 i = (r : EReal))
      ∧ (∀ i, ∃ r : ℝ, a12 i = (r : EReal)) := by
  obtain ⟨r0, r1, r2, -, r4, -, r6, -, -, -, r10, -, r12, -⟩ := all_inputs_real a0 a1 a2 a3 a4 a5 a6 a7 a8 a9 a10 a11 a12 a13 h
  exact ⟨r0, r1, r2, r4, r6, r10, r12⟩

end Cert.Gru.Finite

end
-- ==== Proof.lean ====
/-
  The certificate of the GRU cell kernel against its reference.

  Both programs compute h' = (1 − z) · n + z · h with r = σ(x W_riᵀ + b_ri + rh), z = σ(x W_ziᵀ + b_zi + rh),
  n = tanh(x W_niᵀ + b_ni + r · (h W_nhᵀ + b_nh)) and rh = h W_rhᵀ + b_rh. The reference does so with one product per gate.
  The kernel lays the gates' weights side by side, splits every factor into a bf16 head and the bf16 head of what is left,
  and sums three of the four cross products. On the extended reals a change of float format is the identity, so a head is
  the factor itself and what is left is the factor minus itself — zero whenever the factor is finite. Under finite
  inputs the kernel's three-term sums are therefore the reference's products, and the two results agree entry by entry.

  The frames (each program runs to the end, faults nowhere, leaves its arguments unchanged) are the two kernel programs'
  frame runs and the reference's run; the two removed bf16 round trips are the identity on the extended reals.
-/
import proofs.«111548_j48266842472681_2_alg».proof.Defs
import proofs.«111548_j48266842472681_2_alg».proof.Proof.Gen.Kernel
import proofs.«111548_j48266842472681_2_alg».proof.Proof.Gen.KernelIdeal
import proofs.«111548_j48266842472681_2_alg».proof.Proof.Gen.ReferenceIdeal
import proofs.«111548_j48266842472681_2_alg».proof.Proof.Gen.Pre_finite_inputs
import proofs.«111548_j48266842472681_2_alg».proof.Proof.BitsFrame
import proofs.«111548_j48266842472681_2_alg».proof.Proof.IdealFrame
import proofs.«111548_j48266842472681_2_alg».proof.Proof.KernelValue
import proofs.«111548_j48266842472681_2_alg».proof.Proof.RefValue
import proofs.«111548_j48266842472681_2_alg».proof.Proof.Finite
import Idealize.ShloMosaic.Adequacy
import Idealize.ShloMosaic.Init

noncomputable section

namespace Cert.Proof

open Idealize.ShloMosaic Idealize.SL.Sem

/-- The kernel's program as printed runs to the end and leaves its arguments as launched. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- So does the reference: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two bf16 round trips the idealization removed (one on each batch block) are the identity on the extended reals. -/
theorem preserves : Cert.preserves_Kernel_KernelIdeal :=
  ⟨IdealRules.truncf_extf.statement _ .f32 .bf16, IdealRules.truncf_extf.statement _ .f32 .bf16⟩

/-- Under finite inputs, from memories agreeing on the fourteen arguments, both programs end with their result at the
    cell update of the arguments: the kernel's by the collapse of its split products, the reference's by reading its
    operations one at a time. -/
theorem algebraic : Cert.algebraic_KernelIdeal_ReferenceIdeal := by
  intro m ρ m' ρ' hpre hagree
  have hfin : ∀ c, Cert.KernelIdeal.Whole.RealInputs m c := fun c =>
    Cert.Gru.Finite.inputs_real _ _ _ _ _ _ _ _ _ _ _ _ _ _ (hpre c)
  refine ⟨fun c => Cert.KernelIdeal.Whole.spec m c, fun c => Cert.KernelIdeal.Whole.spec m c,
    Cert.KernelIdeal.Whole.run m ρ hfin, ?_⟩
  refine (θ_run Cert.ReferenceIdeal.defs _ _).mono (fun r h c => ?_) (Cert.ReferenceIdeal.RefValue.ref_run_cell m' ρ')
  obtain ⟨g0, g1, g2, g3, g4, g5, g6, g7, g8, g9, g10, g11, g12, g13⟩ := hagree c
  have e : Cert.Gru.cell (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      = Cert.KernelIdeal.Whole.spec m c := by
    rw [g0, g1, g2, g3, g4, g5, g6, g7, g10, g11, g12, g13]
  exact ⟨(h c).1.trans e, (h c).2.1.trans e, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
